-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S1024x128 : Shape := ⟨2, ![1024, 128]⟩
abbrev S128 : Shape := ⟨1, ![128]⟩
abbrev S512x16 : Shape := ⟨2, ![512, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S800000 32) (main_arg3 : FVec F S1024x128 .f32) (main_arg4 : FVec F S128 .f32) (main_arg5 : FVec F S512x16 .f32) (main_arg6 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1024x128 .f32 := Host.absf main_arg3
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x16 .f32 := Host.absf main_arg5
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S1024x128 : Shape := ⟨2, ![1024, 128]⟩
abbrev S128 : Shape := ⟨1, ![128]⟩
abbrev S512x16 : Shape := ⟨2, ![512, 16]⟩
abbrev S16 : Shape := ⟨1, ![16]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S200000x256 : Shape := ⟨2, ![200000, 256]⟩
abbrev S4x50000x256 : Shape := ⟨3, ![4, 50000, 256]⟩
abbrev S4x256x128 : Shape := ⟨3, ![4, 256, 128]⟩
abbrev S50000x128 : Shape := ⟨2, ![50000, 128]⟩
abbrev S800000x128 : Shape := ⟨2, ![800000, 128]⟩
abbrev S200000x128 : Shape := ⟨2, ![200000, 128]⟩
abbrev S4x50000x128 : Shape := ⟨3, ![4, 50000, 128]⟩
abbrev S4x128x16 : Shape := ⟨3, ![4, 128, 16]⟩
abbrev S50000x16 : Shape := ⟨2, ![50000, 16]⟩
abbrev S4x2000x256 : Shape := ⟨3, ![4, 2000, 256]⟩
abbrev S2000x128 : Shape := ⟨2, ![2000, 128]⟩
abbrev S1x2000x256 : Shape := ⟨3, ![1, 2000, 256]⟩
abbrev S2000x256 : Shape := ⟨2, ![2000, 256]⟩
abbrev S1x256x128 : Shape := ⟨3, ![1, 256, 128]⟩
abbrev S256x128 : Shape := ⟨2, ![256, 128]⟩
abbrev S1x128 : Shape := ⟨2, ![1, 128]⟩
abbrev S4x2000x128 : Shape := ⟨3, ![4, 2000, 128]⟩
abbrev S2000x16 : Shape := ⟨2, ![2000, 16]⟩
abbrev S1x2000x128 : Shape := ⟨3, ![1, 2000, 128]⟩
abbrev S1x128x16 : Shape := ⟨3, ![1, 128, 16]⟩
abbrev S128x16 : Shape := ⟨2, ![128, 16]⟩
abbrev S1x16 : Shape := ⟨2, ![1, 16]⟩
abbrev S2000 : Shape := ⟨1, ![2000]⟩
abbrev S2000x1 : Shape := ⟨2, ![2000, 1]⟩

abbrev nBuf : Space → Nat
  | .hbm => 99
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .i32⟩
  | .hbm, ⟨3, _⟩ => ⟨S1024x128, .f32⟩
  | .hbm, ⟨4, _⟩ => ⟨S128, .f32⟩
  | .hbm, ⟨5, _⟩ => ⟨S512x16, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x1, .f32⟩
  | .hbm, ⟨60, _⟩ => ⟨S800000x256, .f32⟩
  | .hbm, ⟨61, _⟩ => ⟨S800000x256, .f32⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S_, .f32⟩
  | .hbm, ⟨67, _⟩ => ⟨S200000x256, .f32⟩
  | .hbm, ⟨68, _⟩ => ⟨S800000x1, .i32⟩
  | .hbm, ⟨69, _⟩ => ⟨S200000x256, .f32⟩
  | .hbm, ⟨70, _⟩ => ⟨S4x50000x256, .f32⟩
  | .hbm, ⟨71, _⟩ => ⟨S4x256x128, .f32⟩
  | .hbm, ⟨72, _⟩ => ⟨S4x256x128, .bf16⟩
  | .hbm, ⟨73, _⟩ => ⟨S50000x128, .bf16⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .bf16⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S_, .f32⟩
  | .hbm, ⟨92, _⟩ => ⟨S200000x128, .f32⟩
  | .hbm, ⟨93, _⟩ => ⟨S800000x1, .i32⟩
  | .hbm, ⟨94, _⟩ => ⟨S200000x128, .f32⟩
  | .hbm, ⟨95, _⟩ => ⟨S4x50000x128, .f32⟩
  | .hbm, ⟨96, _⟩ => ⟨S4x128x16, .f32⟩
  | .hbm, ⟨97, _⟩ => ⟨S4x128x16, .bf16⟩
  | .hbm, ⟨98, _⟩ => ⟨S50000x16, .f32⟩
  | .local _ .vmem, ⟨0, _⟩ => ⟨S4x2000x256, .f32⟩
  | .local _ .vmem, ⟨1, _⟩ => ⟨S4x2000x256, .f32⟩
  | .local _ .vmem, ⟨2, _⟩ => ⟨S4x256x128, .bf16⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S4x2000x128, .f32⟩
  | .local _ .vmem, ⟨7, _⟩ => ⟨S4x2000x128, .f32⟩
  | .local _ .vmem, ⟨8, _⟩ => ⟨S4x128x16, .bf16⟩
  | .local _ .vmem, ⟨9, _⟩ => ⟨S16, .f32⟩
  | .local _ .vmem, ⟨10, _⟩ => ⟨S2000x16, .f32⟩
  | .local _ .vmem, ⟨11, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_cst_2 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst_3 : Ref sig .tc := ⟨.hbm, 24, rfl⟩
abbrev main_call0_v13 : Ref sig .tc := ⟨.hbm, 25, rfl⟩
abbrev main_call0_v14 : Ref sig .tc := ⟨.hbm, 26, rfl⟩
abbrev main_call0_cst_4 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v15 : Ref sig .tc := ⟨.hbm, 30, rfl⟩
abbrev main_call0_c : Ref sig .tc := ⟨.hbm, 31, rfl⟩
abbrev main_call0_v16 : Ref sig .tc := ⟨.hbm, 32, rfl⟩
abbrev main_call0_v17 : Ref sig .tc := ⟨.hbm, 33, rfl⟩
abbrev main_call0_c_5 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_c_6 : Ref sig .tc := ⟨.hbm, 40, rfl⟩
abbrev main_call0_v23 : Ref sig .tc := ⟨.hbm, 41, rfl⟩
abbrev main_call0_v24 : Ref sig .tc := ⟨.hbm, 42, rfl⟩
abbrev main_call0_c_7 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_c_8 : Ref sig .tc := ⟨.hbm, 50, rfl⟩
abbrev main_call0_v31 : Ref sig .tc := ⟨.hbm, 51, rfl⟩
abbrev main_call0_v32 : Ref sig .tc := ⟨.hbm, 52, rfl⟩
abbrev main_call0_c_9 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_c_10 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_cst_11 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_c_12 : Ref sig .tc := ⟨.hbm, 74, rfl⟩
abbrev main_call0_v51 : Ref sig .tc := ⟨.hbm, 75, rfl⟩
abbrev main_call0_v52 : Ref sig .tc := ⟨.hbm, 76, rfl⟩
abbrev main_call0_c_13 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_c_14 : Ref sig .tc := ⟨.hbm, 87, rfl⟩
abbrev main_call0_v62 : Ref sig .tc := ⟨.hbm, 88, rfl⟩
abbrev main_call0_v63 : Ref sig .tc := ⟨.hbm, 89, rfl⟩
abbrev main_call0_v64 : Ref sig .tc := ⟨.hbm, 90, rfl⟩
abbrev main_call0_cst_15 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_v0 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S200000x256 : S_.BroadcastsInDim S200000x256 (![] : Fin 0 → Fin S200000x256.rank)
  shapeCasts_S200000x256_S4x50000x256 : S200000x256.ShapeCasts S4x50000x256
  shapeCasts_S1024x128_S4x256x128 : S1024x128.ShapeCasts S4x256x128
  bitsLt_bf16_f32 : FTy.bits .bf16 < FTy.bits .f32
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  shapeCasts_S200000x128_S4x50000x128 : S200000x128.ShapeCasts S4x50000x128
  shapeCasts_S512x16_S4x128x16 : S512x16.ShapeCasts S4x128x16
  inb_S4x2000x256_S1x2000x256_0_0_0 : ∀ a, (![0, 0, 0] : Fin 3 → Nat) a + S1x2000x256.size a ≤ S4x2000x256.size a
  h_S1x2000x256 : 0 < S1x2000x256.numel
  shapeCasts_S1x2000x256_S2000x256 : S1x2000x256.ShapeCasts S2000x256
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  inb_S4x2000x256_S1x2000x256_1_0_0 : ∀ a, (![1, 0, 0] : Fin 3 → Nat) a + S1x2000x256.size a ≤ S4x2000x256.size a
  inb_S4x256x128_S1x256x128_1_0_0 : ∀ a, (![1, 0, 0] : Fin 3 → Nat) a + S1x256x128.size a ≤ S4x256x128.size a
  inb_S4x2000x256_S1x2000x256_2_0_0 : ∀ a, (![2, 0, 0] : Fin 3 → Nat) a + S1x2000x256.size a ≤ S4x2000x256.size a
  inb_S4x256x128_S1x256x128_2_0_0 : ∀ a, (![2, 0, 0] : Fin 3 → Nat) a + S1x256x128.size a ≤ S4x256x128.size a
  inb_S4x2000x256_S1x2000x256_3_0_0 : ∀ a, (![3, 0, 0] : Fin 3 → Nat) a + S1x2000x256.size a ≤ S4x2000x256.size a
  inb_S4x256x128_S1x256x128_3_0_0 : ∀ a, (![3, 0, 0] : Fin 3 → Nat) a + S1x256x128.size a ≤ S4x256x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S4x128x16_S1x128x16_0_0_0 : ∀ a, (![0, 0, 0] : Fin 3 → Nat) a + S1x128x16.size a ≤ S4x128x16.size a
  h_S1x128x16 : 0 < S1x128x16.numel
  shapeCasts_S1x128x16_S128x16 : S1x128x16.ShapeCasts S128x16
  inb_S4x2000x128_S1x2000x128_1_0_0 : ∀ a, (![1, 0, 0] : Fin 3 → Nat) a + S1x2000x128.size a ≤ S4x2000x128.size a
  inb_S4x128x16_S1x128x16_1_0_0 : ∀ a, (![1, 0, 0] : Fin 3 → Nat) a + S1x128x16.size a ≤ S4x128x16.size a
  inb_S4x2000x128_S1x2000x128_2_0_0 : ∀ a, (![2, 0, 0] : Fin 3 → Nat) a + S1x2000x128.size a ≤ S4x2000x128.size a
  inb_S4x128x16_S1x128x16_2_0_0 : ∀ a, (![2, 0, 0] : Fin 3 → Nat) a + S1x128x16.size a ≤ S4x128x16.size a
  inb_S4x2000x128_S1x2000x128_3_0_0 : ∀ a, (![3, 0, 0] : Fin 3 → Nat) a + S1x2000x128.size a ≤ S4x2000x128.size a
  inb_S4x128x16_S1x128x16_3_0_0 : ∀ a, (![3, 0, 0] : Fin 3 → Nat) a + S1x128x16.size a ≤ S4x128x16.size a
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S200000x256_S800000x1_S800000x256_1_0_0_1_wf : ScatterDims.WF S200000x256 S800000x1 S800000x256 [1] [0] [0] 1
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S2000x256_S256x128_S2000x128_1_0_0_1_n_n_wf : DotDims.WF S2000x256 S256x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x256.size a ≤ S4x50000x256.size a
  hwx0_0 : ∀ i : grid0.Coords, EltTy.bits .f32 = 32 ∨ (Rect.block (s := S4x50000x256) S4x2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x128.size a ≤ S4x256x128.size a
  hwx0_1 : ∀ i : grid0.Coords, EltTy.bits .bf16 = 32 ∨ (Rect.block (s := S4x256x128) S4x256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x128.size a ≤ S4x50000x128.size a
  hwx1_0 : ∀ i : grid1.Coords, EltTy.bits .f32 = 32 ∨ (Rect.block (s := S4x50000x128) S4x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x16.size a ≤ S4x128x16.size a
  hwx1_1 : ∀ i : grid1.Coords, EltTy.bits .bf16 = 32 ∨ (Rect.block (s := S4x128x16) S4x128x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S50000x16.size a
  hwx1_3 : ∀ i : grid1.Coords, EltTy.bits .f32 = 32 ∨ (Rect.block (s := S50000x16) S2000x16.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S200000x256_S800000x1_S800000x256_1_0_0_1 : ScatterDims S200000x256 S800000x1 S800000x256 where
  updateWindowDims := [1]
  insertedWindowDims := [0]
  scatterDimsToOperandDims := [0]
  indexVectorDim := 1
  wf := scatter_S200000x256_S800000x1_S800000x256_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_call0_v47) S4x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v49) S4x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v50) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v68) S4x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v70) S4x128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S1024x128 : Shape := ⟨2, ![1024, 128]⟩
abbrev S128 : Shape := ⟨1, ![128]⟩
abbrev S512x16 : Shape := ⟨2, ![512, 16]⟩
abbrev S16 : Shape := ⟨1, ![16]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S200000x256 : Shape := ⟨2, ![200000, 256]⟩
abbrev S4x50000x256 : Shape := ⟨3, ![4, 50000, 256]⟩
abbrev S50000x4x256 : Shape := ⟨3, ![50000, 4, 256]⟩
abbrev S50000x1024 : Shape := ⟨2, ![50000, 1024]⟩
abbrev S50000x128 : Shape := ⟨2, ![50000, 128]⟩
abbrev S1x128 : Shape := ⟨2, ![1, 128]⟩
abbrev S800000x128 : Shape := ⟨2, ![800000, 128]⟩
abbrev S200000x128 : Shape := ⟨2, ![200000, 128]⟩
abbrev S4x50000x128 : Shape := ⟨3, ![4, 50000, 128]⟩
abbrev S50000x4x128 : Shape := ⟨3, ![50000, 4, 128]⟩
abbrev S50000x512 : Shape := ⟨2, ![50000, 512]⟩
abbrev S50000x16 : Shape := ⟨2, ![50000, 16]⟩
abbrev S1x16 : Shape := ⟨2, ![1, 16]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .i32⟩
  | .hbm, ⟨3, _⟩ => ⟨S1024x128, .f32⟩
  | .hbm, ⟨4, _⟩ => ⟨S128, .f32⟩
  | .hbm, ⟨5, _⟩ => ⟨S512x16, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x1, .f32⟩
  | .hbm, ⟨60, _⟩ => ⟨S800000x256, .f32⟩
  | .hbm, ⟨61, _⟩ => ⟨S800000x256, .f32⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S_, .f32⟩
  | .hbm, ⟨67, _⟩ => ⟨S200000x256, .f32⟩
  | .hbm, ⟨68, _⟩ => ⟨S800000x1, .i32⟩
  | .hbm, ⟨69, _⟩ => ⟨S200000x256, .f32⟩
  | .hbm, ⟨70, _⟩ => ⟨S4x50000x256, .f32⟩
  | .hbm, ⟨71, _⟩ => ⟨S50000x4x256, .f32⟩
  | .hbm, ⟨72, _⟩ => ⟨S50000x1024, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S800000x1, .f32⟩
  | .hbm, ⟨87, _⟩ => ⟨S800000x128, .f32⟩
  | .hbm, ⟨88, _⟩ => ⟨S800000x128, .f32⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S_, .f32⟩
  | .hbm, ⟨94, _⟩ => ⟨S200000x128, .f32⟩
  | .hbm, ⟨95, _⟩ => ⟨S800000x1, .i32⟩
  | .hbm, ⟨96, _⟩ => ⟨S200000x128, .f32⟩
  | .hbm, ⟨97, _⟩ => ⟨S4x50000x128, .f32⟩
  | .hbm, ⟨98, _⟩ => ⟨S50000x4x128, .f32⟩
  | .hbm, ⟨99, _⟩ => ⟨S50000x512, .f32⟩
  | .hbm, ⟨100, _⟩ => ⟨S50000x16, .f32⟩
  | .hbm, ⟨101, _⟩ => ⟨S1x16, .f32⟩
  | .hbm, ⟨102, _⟩ => ⟨S50000x16, .f32⟩
  | .hbm, ⟨103, _⟩ => ⟨S50000x16, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x16, .f32⟩
  | .hbm, ⟨111, _⟩ => ⟨S50000x16, .f32⟩
  | .hbm, ⟨112, _⟩ => ⟨S50000x16, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x16, .f32⟩
  | .hbm, ⟨118, _⟩ => ⟨S50000x16, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_call1_cst_0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_cst_1 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_v77 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S200000x256 : S_.BroadcastsInDim S200000x256 (![] : Fin 0 → Fin S200000x256.rank)
  shapeCasts_S200000x256_S4x50000x256 : S200000x256.ShapeCasts S4x50000x256
  transposes_S4x50000x256_S50000x4x256_1_0_2 : S4x50000x256.Transposes [1, 0, 2] S50000x4x256
  shapeCasts_S50000x4x256_S50000x1024 : S50000x4x256.ShapeCasts S50000x1024
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  shapeCasts_S200000x128_S4x50000x128 : S200000x128.ShapeCasts S4x50000x128
  transposes_S4x50000x128_S50000x4x128_1_0_2 : S4x50000x128.Transposes [1, 0, 2] S50000x4x128
  shapeCasts_S50000x4x128_S50000x512 : S50000x4x128.ShapeCasts S50000x512
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S200000x256_S800000x1_S800000x256_1_0_0_1_wf : ScatterDims.WF S200000x256 S800000x1 S800000x256 [1] [0] [0] 1
  dot_S50000x1024_S1024x128_S50000x128_1_0_0_1_n_n_wf : DotDims.WF S50000x1024 S1024x128 S50000x128 [1] [0] [0] [1] [] []
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S50000x512_S512x16_S50000x16_1_0_0_1_n_n_wf : DotDims.WF S50000x512 S512x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S200000x256_S800000x1_S800000x256_1_0_0_1 : ScatterDims S200000x256 S800000x1 S800000x256 where
  updateWindowDims := [1]
  insertedWindowDims := [0]
  scatterDimsToOperandDims := [0]
  indexVectorDim := 1
  wf := scatter_S200000x256_S800000x1_S800000x256_1_0_0_1_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S50000x512_S512x16_S50000x16_1_0_0_1_n_n : DotDims S50000x512 S512x16 S50000x16 where
  lhsContracting := [1]
  rhsContracting := [0]
  lhsNonContracting := [0]
  rhsNonContracting := [1]
  lhsBatch := []
  rhsBatch := []
  wf := dot_S50000x512_S512x16_S50000x16_1_0_0_1_n_n_wf

class Facts : Prop extends Facts₀ where

variable [Facts]
-- ==== Proof.KernelRun.lean ====
/- The run of the kernel program, with its output array named.

   The claim proved by the generated frame module says that every weakly fair execution of @main terminates and
   leaves the seven argument arrays as launched.  The same run also determines the output array: at the end the
   buffer of `main_v0` holds what region 1's pipeline leaves in its fourth window (its write-backs folded over
   all grid points), the proof data being taken at the contents with which region 1 is entered. -/
import proofs.«148697_j30640296689801_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fourth window of region 1 is the program's result array. -/
theorem arrRef_out : Pipeline.arrRef spec1 3 = main_v0 := rfl

-- the launch lemma's implicit arguments are found by unifying its conclusion with this one, which takes unfolding
-- plain definitions in a metavariable's type
set_option backward.isDefEq.respectTransparency.types false in
/-- Every weakly fair execution of @main from a memory with zero counters terminates without fault; in every final
    state the result array holds region 1's fourth window after its last grid point, and the arguments are as
    launched. -/
theorem run_out : θ_run defs (onTc (τ := τ) (main (F := F))) ⟨m, fun _ => 0, ρ⟩ (fun r => ∀ c : Dev nD,
      r.2.mem ((c.tc : Thread nD τ).loc main_v0) = (Gen.dat1 (Gen.V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- info: 'Cert.KernelIdeal.Run.run_out' depends on axioms: [propext, Classical.choice, Quot.sound] -/
#guard_msgs in #print axioms run_out

end Cert.KernelIdeal.Run

end
-- ==== Proof.RefRun.lean ====
/-
  The reference program as a straight line of host operations, and its run.

  The reference's entry point is 112 tensor operations in sequence (the two functions it calls, a `where` and the final
  `log_softmax`, stand in their calls' places): the edge list cut into its two rows, the degree of every node by a
  scatter-add of ones, the symmetric normalisation `d⁻¹ᐟ²[row]·d⁻¹ᐟ²[col]` of every edge, and then twice a layer —
  gather the source rows, scale by the edge norm, scatter-add into the (relation, destination) segments, lay the four
  relation-wise aggregates side by side, multiply by the weight matrix and add the bias — followed by the
  log-softmax of every row. Every weakly fair execution of that line terminates, leaves the arguments as launched, and
  leaves the result buffer at the fold of the operations' results over the launch contents. What that fold is as a
  function of the arguments is read a stretch of operations at a time in RefStages.lean.
-/
import proofs.«148697_j30640296689801_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 112 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.sqrt : (⟨S50000, .f32⟩ : BufTy).Contents (Elt F) → (⟨S50000, .f32⟩ : BufTy).Contents (Elt F)),
    nullary main_cst_3 (constant S_ .f32 0x3F800000#32),
    unary main_cst_3 main_v13 (broadcastInDim S50000 ![] bcast_S_S50000 : (⟨S_, .f32⟩ : BufTy).Contents (Elt F) → (⟨S50000, .f32⟩ : BufTy).Contents (Elt F)),
    binary main_v13 main_v12 main_v14 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_6 (constantI S_ 32 0#32),
    unary main_c_6 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v15 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    nullary main_c_8 (constantI S_ 32 0#32),
    unary main_c_8 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_arg0 main_v36 main_v37 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v38 (broadcastInDim S800000x1 ![0] bcast_S800000_S800000x1_0 : (⟨S800000, .f32⟩ : BufTy).Contents (Elt F) → (⟨S800000x1, .f32⟩ : BufTy).Contents (Elt F)),
    unary main_v38 main_v39 (broadcastInDim S800000x256 ![0, 1] bcast_S800000x1_S800000x256_0_1 : (⟨S800000x1, .f32⟩ : BufTy).Contents (Elt F) → (⟨S800000x256, .f32⟩ : BufTy).Contents (Elt F)),
    binary main_v37 main_v39 main_v40 (mulf : (⟨S800000x256, .f32⟩ : BufTy).Contents (Elt F) → (⟨S800000x256, .f32⟩ : BufTy).Contents (Elt F) → (⟨S800000x256, .f32⟩ : BufTy).Contents (Elt F)),
    nullary main_c_10 (constantI S_ 32 50000#32),
    unary main_c_10 main_v41 (broadcastInDim S800000 ![] bcast_S_S800000 : (⟨S_, .i32⟩ : BufTy).Contents (Elt F) → (⟨S800000, .i32⟩ : BufTy).Contents (Elt F)),
    binary main_arg2 main_v41 main_v42 (muli : (⟨S800000, .i32⟩ : BufTy).Contents (Elt F) → (⟨S800000, .i32⟩ : BufTy).Contents (Elt F) → (⟨S800000, .i32⟩ : BufTy).Contents (Elt F)),
    binary main_v42 main_v1 main_v43 (addi : (⟨S800000, .i32⟩ : BufTy).Contents (Elt F) → (⟨S800000, .i32⟩ : BufTy).Contents (Elt F) → (⟨S800000, .i32⟩ : BufTy).Contents (Elt F)),
    nullary main_cst_11 (constant S_ .f32 0x00000000#32),
    unary main_cst_11 main_v44 (broadcastInDim S200000x256 ![] bcast_S_S200000x256 : (⟨S_, .f32⟩ : BufTy).Contents (Elt F) → (⟨S200000x256, .f32⟩ : BufTy).Contents (Elt F)),
    unary main_v43 main_v45 (broadcastInDim S800000x1 ![0] bcast_S800000_S800000x1_0 : (⟨S800000, .i32⟩ : BufTy).Contents (Elt F) → (⟨S800000x1, .i32⟩ : BufTy).Contents (Elt F)),
    ternary main_v44 main_v45 main_v40 main_v46 ((fun x i u => Host.scatterAdd scatter_S200000x256_S800000x1_S800000x256_1_0_0_1 x i u) : (⟨S200000x256, .f32⟩ : BufTy).Contents (Elt F) → (⟨S800000x1, .i32⟩ : BufTy).Contents (Elt F) → (⟨S800000x256, .f32⟩ : BufTy).Contents (Elt F) → (⟨S200000x256, .f32⟩ : BufTy).Contents (Elt F)),
    reshape main_v46 main_v47 rfl shapeCasts_S200000x256_S4x50000x256,
    unary main_v47 main_v48 ((transpose S50000x4x256 [1, 0, 2] · transposes_S4x50000x256_S50000x4x256_1_0_2) : (⟨S4x50000x256, .f32⟩ : BufTy).Contents (Elt F) → (⟨S50000x4x256, .f32⟩ : BufTy).Contents (Elt F)),
    reshape main_v48 main_v49 rfl shapeCasts_S50000x4x256_S50000x1024,
    binary main_v49 main_arg3 main_v50 ((fun l r => Host.dotGeneral dot_S50000x1024_S1024x128_S50000x128_1_0_0_1_n_n none l r) : (⟨S50000x1024, .f32⟩ : BufTy).Contents (Elt F) → (⟨S1024x128, .f32⟩ : BufTy).Contents (Elt F) → (⟨S50000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v54 (broadcastInDim S800000 ![] bcast_S_S800000 : (⟨S_, .i32⟩ : BufTy).Contents (Elt F) → (⟨S800000, .i32⟩ : BufTy).Contents (Elt F)),
    binary main_v3 main_v54 main_v55 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v56 (broadcastInDim S800000 ![] bcast_S_S800000 : (⟨S_, .i32⟩ : BufTy).Contents (Elt F) → (⟨S800000, .i32⟩ : BufTy).Contents (Elt F)),
    binary main_v3 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_v3 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v53 main_v59 main_v60 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v61 (broadcastInDim S800000x1 ![0] bcast_S800000_S800000x1_0 : (⟨S800000, .f32⟩ : BufTy).Contents (Elt F) → (⟨S800000x1, .f32⟩ : BufTy).Contents (Elt F)),
    unary main_v61 main_v62 (broadcastInDim S800000x128 ![0, 1] bcast_S800000x1_S800000x128_0_1 : (⟨S800000x1, .f32⟩ : BufTy).Contents (Elt F) → (⟨S800000x128, .f32⟩ : BufTy).Contents (Elt F)),
    binary main_v60 main_v62 main_v63 (mulf : (⟨S800000x128, .f32⟩ : BufTy).Contents (Elt F) → (⟨S800000x128, .f32⟩ : BufTy).Contents (Elt F) → (⟨S800000x128, .f32⟩ : BufTy).Contents (Elt F)),
    nullary main_c_14 (constantI S_ 32 50000#32),
    unary main_c_14 main_v64 (broadcastInDim S800000 ![] bcast_S_S800000 : (⟨S_, .i32⟩ : BufTy).Contents (Elt F) → (⟨S800000, .i32⟩ : BufTy).Contents (Elt F)),
    binary main_arg2 main_v64 main_v65 (muli : (⟨S800000, .i32⟩ : BufTy).Contents (Elt F) → (⟨S800000, .i32⟩ : BufTy).Contents (Elt F) → (⟨S800000, .i32⟩ : BufTy).Contents (Elt F)),
    binary main_v65 main_v1 main_v66 (addi : (⟨S800000, .i32⟩ : BufTy).Contents (Elt F) → (⟨S800000, .i32⟩ : BufTy).Contents (Elt F) → (⟨S800000, .i32⟩ : BufTy).Contents (Elt F)),
    nullary main_cst_15 (constant S_ .f32 0x00000000#32),
    unary main_cst_15 main_v67 (broadcastInDim S200000x128 ![] bcast_S_S200000x128 : (⟨S_, .f32⟩ : BufTy).Contents (Elt F) → (⟨S200000x128, .f32⟩ : BufTy).Contents (Elt F)),
    unary main_v66 main_v68 (broadcastInDim S800000x1 ![0] bcast_S800000_S800000x1_0 : (⟨S800000, .i32⟩ : BufTy).Contents (Elt F) → (⟨S800000x1, .i32⟩ : BufTy).Contents (Elt F)),
    ternary main_v67 main_v68 main_v63 main_v69 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    reshape main_v69 main_v70 rfl shapeCasts_S200000x128_S4x50000x128,
    unary main_v70 main_v71 ((transpose S50000x4x128 [1, 0, 2] · transposes_S4x50000x128_S50000x4x128_1_0_2) : (⟨S4x50000x128, .f32⟩ : BufTy).Contents (Elt F) → (⟨S50000x4x128, .f32⟩ : BufTy).Contents (Elt F)),
    reshape main_v71 main_v72 rfl shapeCasts_S50000x4x128_S50000x512,
    binary main_v72 main_arg5 main_v73 ((fun l r => Host.dotGeneral dot_S50000x512_S512x16_S50000x16_1_0_0_1_n_n none l r) : (⟨S50000x512, .f32⟩ : BufTy).Contents (Elt F) → (⟨S512x16, .f32⟩ : BufTy).Contents (Elt F) → (⟨S50000x16, .f32⟩ : BufTy).Contents (Elt F)),
    unary main_arg6 main_v74 (broadcastInDim S1x16 ![1] bcast_S16_S1x16_1 : (⟨S16, .f32⟩ : BufTy).Contents (Elt F) → (⟨S1x16, .f32⟩ : BufTy).Contents (Elt F)),
    unary main_v74 main_v75 (broadcastInDim S50000x16 ![0, 1] bcast_S1x16_S50000x16_0_1 : (⟨S1x16, .f32⟩ : BufTy).Contents (Elt F) → (⟨S50000x16, .f32⟩ : BufTy).Contents (Elt F)),
    binary main_v73 main_v75 main_v76 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call1_cst) (constant S_ .f32 0xFF800000#32),
    TRef.binary (TRef.of (T := ⟨S50000x16, .f32⟩) main_v76) (TRef.of (T := ⟨S_, .f32⟩) main_call1_cst) (TRef.of (T := ⟨S50000, .f32⟩) main_call1_v0) (fun x v => Host.reduce FloatOps.maximumf x v reducesTo_S50000x16_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x16, .f32⟩) main_call1_v4) (broadcastInDim S50000x16 ![0, 1] bcast_S50000x1_S50000x16_0_1),
    TRef.binary (TRef.of (T := ⟨S50000x16, .f32⟩) main_v76) (TRef.of (T := ⟨S50000x16, .f32⟩) main_call1_v4) (TRef.of (T := ⟨S50000x16, .f32⟩) main_call1_v5) subf,
    TRef.unary (TRef.of (T := ⟨S50000x16, .f32⟩) main_call1_v5) (TRef.of (T := ⟨S50000x16, .f32⟩) main_call1_v6) Host.exp,
    TRef.nullary (TRef.of (T := ⟨S_, .f32⟩) main_call1_cst_1) (constant S_ .f32 0x00000000#32),
    TRef.binary (TRef.of (T := ⟨S50000x16, .f32⟩) main_call1_v6) (TRef.of (T := ⟨S_, .f32⟩) main_call1_cst_1) (TRef.of (T := ⟨S50000, .f32⟩) main_call1_v7) (fun x v => Host.reduceAdd x v reducesTo_S50000x16_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x16, .f32⟩) main_call1_v10) (broadcastInDim S50000x16 ![0, 1] bcast_S50000x1_S50000x16_0_1),
    TRef.binary (TRef.of (T := ⟨S50000x16, .f32⟩) main_call1_v5) (TRef.of (T := ⟨S50000x16, .f32⟩) main_call1_v10) (TRef.of (T := ⟨S50000x16, .f32⟩) main_v77) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., reshape_bufs_sub .., unary_bufs_sub .., reshape_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 44800000 in
/-- On every device, for any float values, from any memory with zero counters: every weakly fair execution of
    @main terminates with the result buffer at the fold of the operations over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = StableHlo.after (ops (F := F)) (launchContents m c) (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v77,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefValue

end
-- ==== Proof.HostRead.lean ====
/- What the two pipeline regions of the kernel program find in their input arrays, read as functions of the
   arguments.

   Before each region the program runs a stretch of host operations.  On a core `c`, with the arguments as
   launched, the stretch before region 0 computes from the edge list the target and source node of every edge and
   the symmetric normalisation 1/sqrt(deg) of both ends, gathers the feature rows of the source nodes, scales them,
   and adds them up per (relation, target node): the aggregated features, the first input of region 0.  Its second
   input is the first weight matrix, cut into one slab per relation and converted to the narrow float type; its
   third the first bias.  The stretch before region 1 does the same with region 0's output in place of the
   features.

   The reference program computes the same aggregations with the same operations; the only operation the kernel
   program has in addition is the conversion of region 0's narrow output back to the wide float type, which does
   not change a value over the extended reals.  So each region's first input is the corresponding stage of the
   reference program.  Everything but that last remark holds for any interpretation `F` of the float types. -/
import proofs.«148697_j30640296689801_2_alg».proof.Proof.Gen.KernelIdeal.Frame
import proofs.«148697_j30640296689801_2_alg».proof.Proof.RefRead
import Idealize.ShloMosaic.Lib.StableHlo.Run
import Idealize.ShloMosaic.PureOps.Ideal
import Idealize.ShloMosaic.Lib.ValueIdx

set_option maxRecDepth 16384

noncomputable section

namespace Cert.KernelIdeal.HostRead

open Idealize.ShloMosaic Idealize.ShloMosaic.TcCoe Idealize.ShloMosaic.Tactic
open Idealize.SL.Sem Idealize.ShloMosaic.StableHlo

/-- Carrying contents to a buffer's own type and back changes nothing. -/
theorem ofBuf_toBuf {sig : RefSig} {Val : EltTy → Type} {T : BufTy} (x : StableHlo.TRef sig T) (v : T.Contents Val) :
    x.ofBuf (x.toBuf v) = v := by
  obtain ⟨r, h, h2, h3⟩ := x
  subst h
  rfl

variable {F : FTy → Type} [FloatOps F]
variable (m : (ℓ : Loc nD τ sig) → Buf (Elt F) ℓ) (ρ : Dev nD → PrngReg) (c : Dev nD)

/-! ## The launch contents of the arguments on a core -/

abbrev a0 : (⟨S50000x256, .f32⟩ : BufTy).Contents (Elt F) := m ((c : Thread nD τ).loc main_arg0)
abbrev a1 : (⟨S2x800000, .i32⟩ : BufTy).Contents (Elt F) := m ((c : Thread nD τ).loc main_arg1)
abbrev a2 : (⟨S800000, .i32⟩ : BufTy).Contents (Elt F) := m ((c : Thread nD τ).loc main_arg2)
abbrev a3 : (⟨S1024x128, .f32⟩ : BufTy).Contents (Elt F) := m ((c : Thread nD τ).loc main_arg3)
abbrev a4 : (⟨S128, .f32⟩ : BufTy).Contents (Elt F) := m ((c : Thread nD τ).loc main_arg4)
abbrev a5 : (⟨S512x16, .f32⟩ : BufTy).Contents (Elt F) := m ((c : Thread nD τ).loc main_arg5)
abbrev a6 : (⟨S16, .f32⟩ : BufTy).Contents (Elt F) := m ((c : Thread nD τ).loc main_arg6)

/-! ## Region 0's weight and bias windows -/

/-- The first layer's weight as region 0 reads it: the 1024×128 matrix cut into four 256×128 slabs, each entry
    converted to the narrow float type. -/
def wcast1 (w : (⟨S1024x128, .f32⟩ : BufTy).Contents (Elt F)) : (⟨S4x256x128, .bf16⟩ : BufTy).Contents (Elt F) :=
  truncf (F := F) .bf16 (shapeCast S4x256x128 w Gen.shapeCasts_S1024x128_S4x256x128) Gen.bitsLt_bf16_f32

/-- No host operation before region 0 writes the first bias: the region finds it as launched. -/
theorem entry0_b : Gen.V1 m ρ c main_arg4 = a4 m c := by
  dsimp only [Gen.V1, Gen.W1, Gen.hostOps0]
  after_results_simp

/-- Region 0's weight window holds the reshaped, converted first weight. -/
theorem entry0_w : Gen.V1 m ρ c main_call0_v49 = wcast1 (a3 m c) := by
  dsimp only [Gen.V1, Gen.W1, Gen.hostOps0]
  after_results_simp
  rfl

/-! ## The edge list and its normalisation after the host operations before region 0 -/

/-- The target node of every edge (row 0 of the edge list). -/
theorem host0_row : Gen.W1 m ρ c (Proc.devRef .tc main_call0_v1)
    = Cert.ReferenceIdeal.Read.val_main_v1 (F := F) (a1 m c) := by
  dsimp only [Gen.W1, Gen.hostOps0]
  after_results_simp
  rfl

/-- The source node of every edge (row 1 of the edge list). -/
theorem host0_col : Gen.W1 m ρ c (Proc.devRef .tc main_call0_v3)
    = Cert.ReferenceIdeal.Read.val_main_v3 (F := F) (a1 m c) := by
  dsimp only [Gen.W1, Gen.hostOps0]
  after_results_simp
  rfl

set_option maxHeartbeats 1000000 in
/-- The normalisation of every edge: the product of 1/sqrt(deg) at its two ends, the degree counted by a
    scatter-add of ones over the target nodes and a node of degree 0 given the factor 0. -/
theorem host0_norm : Gen.W1 m ρ c (Proc.devRef .tc main_call0_v30)
    = Cert.ReferenceIdeal.Read.val_main_v30 (F := F) (a1 m c) := by
  dsimp only [Gen.W1, Gen.hostOps0]
  after_results_simp
  simp only [ofBuf_toBuf]
  rfl

/-! ## Region 0's first input: the aggregated features -/

set_option maxHeartbeats 2000000 in
/-- Region 0's first input is the reference program's first aggregation: the same gathers, the same scaling by the
    edge normalisation, the same scatter-add per (relation, target node), the same reshape. -/
theorem entry0_agg : (Gen.V1 m ρ c main_call0_v47 : (⟨S4x50000x256, .f32⟩ : BufTy).Contents (Elt F))
    = Cert.ReferenceIdeal.Read.val_main_v47 (F := F) (a0 m c) (a1 m c) (a2 m c) := by
  dsimp only [Gen.V1, Gen.W1, Gen.hostOps0]
  after_results_simp
  simp only [ofBuf_toBuf]
  rfl

/-! ## Region 1's weight and bias windows -/

/-- The second layer's weight as region 1 reads it: the 512×16 matrix cut into four 128×16 slabs, converted. -/
def wcast2 (w : (⟨S512x16, .f32⟩ : BufTy).Contents (Elt F)) : (⟨S4x128x16, .bf16⟩ : BufTy).Contents (Elt F) :=
  truncf (F := F) .bf16 (shapeCast S4x128x16 w Gen.shapeCasts_S512x16_S4x128x16) Gen.bitsLt_bf16_f32

/-- Neither the host operations before region 0 nor region 0 write the second weight. -/
theorem exit0_arg5 : Gen.W2 m ρ c (Proc.devRef .tc main_arg5) = a5 m c := by
  rw [Gen.W2_of_ne m ρ c main_arg5 (by decide)]
  dsimp only [Gen.W1, Gen.hostOps0]
  after_results_simp

/-- Neither the host operations before region 0 nor region 0 write the second bias. -/
theorem exit0_arg6 : Gen.W2 m ρ c (Proc.devRef .tc main_arg6) = a6 m c := by
  rw [Gen.W2_of_ne m ρ c main_arg6 (by decide)]
  dsimp only [Gen.W1, Gen.hostOps0]
  after_results_simp

/-- Neither the host operations before region 0 nor region 0 write the relation vector. -/
theorem exit0_arg2 : Gen.W2 m ρ c (Proc.devRef .tc main_arg2) = a2 m c := by
  rw [Gen.W2_of_ne m ρ c main_arg2 (by decide)]
  dsimp only [Gen.W1, Gen.hostOps0]
  after_results_simp

/-- Region 1 finds the second bias as launched. -/
theorem entry1_b : Gen.V3 m ρ c main_arg6 = a6 m c := by
  dsimp only [Gen.V3, Gen.W3, Gen.hostOps1]
  after_results_simp
  exact exit0_arg6 m ρ c

/-- Region 1's weight window holds the reshaped, converted second weight. -/
theorem entry1_w : Gen.V3 m ρ c main_call0_v70 = wcast2 (a5 m c) := by
  dsimp only [Gen.V3, Gen.W3, Gen.hostOps1]
  after_results_simp
  rw [exit0_arg5 m ρ c]
  rfl

/-! ## Region 1's first input: the aggregated hidden layer -/

/-- Region 0 writes neither the edge list's rows nor the edge normalisation: region 1's host operations find them
    as the host operations before region 0 left them. -/
theorem exit0_row : Gen.W2 m ρ c (Proc.devRef .tc main_call0_v1)
    = Cert.ReferenceIdeal.Read.val_main_v1 (F := F) (a1 m c) :=
  (Gen.W2_of_ne m ρ c main_call0_v1 (by decide)).trans (host0_row m ρ c)
theorem exit0_col : Gen.W2 m ρ c (Proc.devRef .tc main_call0_v3)
    = Cert.ReferenceIdeal.Read.val_main_v3 (F := F) (a1 m c) :=
  (Gen.W2_of_ne m ρ c main_call0_v3 (by decide)).trans (host0_col m ρ c)
theorem exit0_norm : Gen.W2 m ρ c (Proc.devRef .tc main_call0_v30)
    = Cert.ReferenceIdeal.Read.val_main_v30 (F := F) (a1 m c) :=
  (Gen.W2_of_ne m ρ c main_call0_v30 (by decide)).trans (host0_norm m ρ c)

/-- The second aggregation as the kernel program computes it from a hidden layer `H` in the narrow float type:
    the rows of `H` at the source nodes, converted to the wide type, scaled by the edge normalisation, added up per
    (relation, target node), reshaped to one slab per relation.  The index and normalisation vectors are the
    reference program's stages of the edge list `x1` and the relation vector `x2`. -/
def agg2 (H : (⟨S50000x128, .bf16⟩ : BufTy).Contents (Elt F)) (x1 : (⟨S2x800000, .i32⟩ : BufTy).Contents (Elt F))
    (x2 : (⟨S800000, .i32⟩ : BufTy).Contents (Elt F)) : (⟨S4x50000x128, .f32⟩ : BufTy).Contents (Elt F) :=
  shapeCast S4x50000x128
    (Host.scatterAdd scatter_S200000x128_S800000x1_S800000x128_1_0_0_1
      (Cert.ReferenceIdeal.Read.val_main_v67 (F := F))
      (Cert.ReferenceIdeal.Read.val_main_v68 (F := F) x1 x2)
      (mulf
        (extf (F := F) .f32
          (Host.gather gather_S50000x128_S800000x1_S800000x128_1_0_n_n_0_1_1128 H (Cert.ReferenceIdeal.Read.val_main_v59 (F := F) x1))
          Gen.bitsLt_bf16_f32)
        (Cert.ReferenceIdeal.Read.val_main_v62 (F := F) x1)))
    Gen.shapeCasts_S200000x128_S4x50000x128

set_option maxHeartbeats 2000000 in
/-- Region 1's first input is the second aggregation of whatever region 0 left in its output array. -/
theorem entry1_agg (H : (⟨S50000x128, .bf16⟩ : BufTy).Contents (Elt F))
    (hH : Gen.W2 m ρ c (Proc.devRef .tc main_call0_v50) = H) :
    (Gen.V3 m ρ c main_call0_v68 : (⟨S4x50000x128, .f32⟩ : BufTy).Contents (Elt F))
      = agg2 H (a1 m c) (a2 m c) := by
  dsimp only [Gen.V3, Gen.W3, Gen.hostOps1]
  after_results_simp
  rw [hH, exit0_arg2 m ρ c, exit0_row m ρ c, exit0_col m ρ c, exit0_norm m ρ c]
  simp only [ofBuf_toBuf]
  rfl

/-! ## Over the extended reals -/

/-- Over the extended reals the conversion from the narrow to the wide float type changes nothing. -/
theorem extf_id {s : Shape} (v : FVec Ideal s .bf16) (h : FTy.bits .bf16 < FTy.bits .f32) :
    extf (F := Ideal) .f32 v h = v := rfl

/-- At the reference program's hidden layer the second aggregation is the reference program's own. -/
theorem agg2_ref (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) :
    agg2 (F := Ideal) (Cert.ReferenceIdeal.Read.val_main_v53 (F := Ideal) x0 x1 x2 x3 x4) x1 x2
      = Cert.ReferenceIdeal.Read.val_main_v70 (F := Ideal) x0 x1 x2 x3 x4 := by
  unfold agg2 Cert.ReferenceIdeal.Read.val_main_v70 Cert.ReferenceIdeal.Read.val_main_v69
    Cert.ReferenceIdeal.Read.val_main_v63 Cert.ReferenceIdeal.Read.val_main_v60
  rw [extf_id]
  rfl

end Cert.KernelIdeal.HostRead

end
-- ==== Proof.Spec.lean ====
/-
  The arithmetic both programs share, stated once over plain finite index types.

  A geometric-GCN layer multiplies, for every node, the four relation-wise aggregates (each a row of
  length `K`) by the matching `K`-row slab of the weight matrix and adds the bias.  One program keeps the
  four slabs apart and accumulates four partial dot products from zero; the other lays the four aggregates
  side by side in one row of length `4 * K` and takes a single dot product.  Both are the same finite sum
  in the commutative monoid of extended reals: only associativity, commutativity and `0 + x = x` are used,
  so no finiteness of the entries is needed.
-/
import Idealize.ShloMosaic.PureOps.Ideal
import Idealize.ShloMosaic.Lib.ValueIdx
import Mathlib.Data.Finset.Fold

noncomputable section

namespace Cert.Spec

open Idealize.ShloMosaic

/-- Four partial dot products accumulated from zero in order, then the bias: one output entry of a layer
    whose weight is kept as four slabs. -/
def lin4 {K : ℕ} (a w : Fin 4 → Fin K → EReal) (b : EReal) : EReal :=
  ((((0 + ∑ f, a 0 f * w 0 f) + ∑ f, a 1 f * w 1 f) + ∑ f, a 2 f * w 2 f) + ∑ f, a 3 f * w 3 f) + b

/-- The accumulation from zero is the double sum over slab and position. -/
theorem lin4_eq_sum {K : ℕ} (a w : Fin 4 → Fin K → EReal) (b : EReal) :
    lin4 a w b = (∑ r : Fin 4, ∑ f : Fin K, a r f * w r f) + b := by
  unfold lin4
  rw [Fin.sum_univ_four, zero_add]

/-- Position `f` of slab `r` in the row of length `n = 4 * K` in which the slabs lie side by side. -/
def flatPos {K n : ℕ} (hn : n = 4 * K) (r : Fin 4) (f : Fin K) : Fin n :=
  Fin.cast hn.symm (finProdFinEquiv (r, f))

theorem flatPos_val {K n : ℕ} (hn : n = 4 * K) (r : Fin 4) (f : Fin K) :
    (flatPos hn r f).val = f.val + K * r.val := rfl

/-- A sum over the long row is the double sum over slab and position. -/
theorem sum_flat {K n : ℕ} (hn : n = 4 * K) (G : Fin n → EReal) :
    ∑ k : Fin n, G k = ∑ r : Fin 4, ∑ f : Fin K, G (flatPos hn r f) := by
  subst hn
  rw [← Equiv.sum_comp finProdFinEquiv G, Fintype.sum_prod_type]
  rfl

/-- The slab-wise accumulation equals the single long dot product plus the bias, whenever the long row and
    the long weight column restrict to the slabs. -/
theorem lin4_eq_flat {K n : ℕ} (hn : n = 4 * K) (a w : Fin 4 → Fin K → EReal) (b : EReal)
    (a' w' : Fin n → EReal) (ha : ∀ r f, a' (flatPos hn r f) = a r f) (hw : ∀ r f, w' (flatPos hn r f) = w r f) :
    lin4 a w b = (∑ k : Fin n, a' k * w' k) + b := by
  rw [lin4_eq_sum, sum_flat hn]
  simp only [ha, hw]

/-! ## Log-softmax of a row -/

/-- The maximum of a row, folded from a starting value `lo` (the programs start from the float pattern of `-∞`; its
    value is never needed). -/
def rowMax {n : ℕ} (lo : EReal) (z : Fin n → EReal) : EReal := (Finset.univ : Finset (Fin n)).fold max lo z

/-- Taking the maximum with the starting value once more changes nothing. -/
theorem max_rowMax {n : ℕ} (lo : EReal) (z : Fin n → EReal) : max lo (rowMax lo z) = rowMax lo z :=
  max_eq_right (show lo ≤ (Finset.univ : Finset (Fin n)).fold max lo z from (Finset.le_fold_max lo).mpr (Or.inl le_rfl))

/-- Log-softmax of a row at position `q`: the entry shifted by the row maximum, minus the logarithm of the sum of the
    exponentials of the shifted row. Both programs compute exactly this expression, so it is kept as it stands: no law
    of the extended reals is used on it. -/
def logSoftmax {n : ℕ} (lo : EReal) (z : Fin n → EReal) (q : Fin n) : EReal :=
  (z q - rowMax lo z) - Ideal.log (∑ k, Ideal.exp (z k - rowMax lo z))

end Cert.Spec

end
-- ==== Proof.Layer1.lean ====
/-
  The first layer's kernel region: what the output array holds after the 25 grid points have run.

  A grid point loads rows `2000·t … 2000·t + 1999` of the four relation-wise aggregates (a `[4, 2000, 256]` block of the
  `[4, 50000, 256]` array), the whole `[4, 256, 128]` weight and the whole bias, and stores the `[2000, 128]` block
  `((((0 + a₀·w₀) + a₁·w₁) + a₂·w₂) + a₃·w₃) + bias`, each `aᵣ·wᵣ` a matrix product accumulated into zero. Read at an
  entry every product is a finite sum over the 256 positions; the stored block is therefore the restriction of ONE
  function of the three arrays (`layer`) to the rows of the block, and since the 25 row blocks tile the 50000 nodes the
  array ends holding that function. Changes of float format are the identity on extended reals.
-/
import proofs.«148697_j30640296689801_2_alg».proof.Proof.Gen.KernelIdeal.Frame
import proofs.«148697_j30640296689801_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem

/-! ## One slab's matrix product at an entry -/

theorem lhs_row (i : S2000x128.Idx) (k : dot_S2000x256_S256x128_S2000x128_1_0_0_1_n_n.contr.Idx) :
    (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_pos (i : S2000x128.Idx) (k : dot_S2000x256_S256x128_S2000x128_1_0_0_1_n_n.contr.Idx) :
    (dot_S2000x256_S256x128_S2000x128_1_0_0_1_n_n.lhsIdx i k 1).val = (k ⟨0, by decide⟩).val :=
  dot_S2000x256_S256x128_S2000x128_1_0_0_1_n_n.lhsIdx_val_of_single rfl i k
theorem rhs_pos (i : S2000x128.Idx) (k : dot_S2000x256_S256x128_S2000x128_1_0_0_1_n_n.contr.Idx) :
    (dot_S2000x256_S256x128_S2000x128_1_0_0_1_n_n.rhsIdx i k 0).val = (k ⟨0, by decide⟩).val :=
  dot_S2000x256_S256x128_S2000x128_1_0_0_1_n_n.rhsIdx_val_of_single rfl i k
theorem rhs_col (i : S2000x128.Idx) (k : dot_S2000x256_S256x128_S2000x128_1_0_0_1_n_n.contr.Idx) :
    (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a row block with one weight slab, accumulated into zero, is at entry `(p, q)` the dot product of
    row `p` with column `q`. -/
theorem slab_apply (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ f : Fin 256, l (ix2 p f) * r (ix2 f q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_pos _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_pos _ _).trans hk
    | ⟨1, _⟩ => exact rhs_col _ _)
  rw [el, er]

/-- The four slab products accumulated from zero, at an entry. -/
theorem acc_apply (v1 v8 v15 v22 : Vec Ideal S1x2000x256 .f32) (v4 v11 v18 v25 : Vec Ideal S1x256x128 .bf16) (p : Fin 2000) (q : Fin 128) :
    k0_pay2 v1 v4 v8 v11 v15 v18 v22 v25 (ix2 p q)
      = (((0 + ∑ f : Fin 256, v1 (ix3 (0 : Fin 1) p f) * v4 (ix3 (0 : Fin 1) f q)) + ∑ f : Fin 256, v8 (ix3 (0 : Fin 1) p f) * v11 (ix3 (0 : Fin 1) f q))
          + ∑ f : Fin 256, v15 (ix3 (0 : Fin 1) p f) * v18 (ix3 (0 : Fin 1) f q)) + ∑ f : Fin 256, v22 (ix3 (0 : Fin 1) p f) * v25 (ix3 (0 : Fin 1) f q) := by
  unfold k0_pay2
  simp only [addf_apply, broadcast_apply, slab_apply, truncf_apply, shapeCast_1ab_ab_apply]
  have hz : (FloatOps.ofBits (F := Ideal) .f32 0x00000000#32 : EReal) = 0 := Ideal.ofBits_zero_f32
  rw [hz]

/-! ## The stored block at an entry -/

theorem hz2 : (![0, 0] : Fin 2 → Nat) = fun _ => 0 := funext fun a => by fin_cases a <;> rfl

/-- Slab `r` of a loaded aggregate block, read at row `p` and position `f`. -/
theorem ld_a0 (x0 : Vec Ideal S4x2000x256 .f32) (p : Fin 2000) (f : Fin 256) : View.ld x0 r0_0 (ix3 (0 : Fin 1) p f) = x0 (ix3 (0 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
theorem ld_a1 (x0 : Vec Ideal S4x2000x256 .f32) (p : Fin 2000) (f : Fin 256) : View.ld x0 r0_2 (ix3 (0 : Fin 1) p f) = x0 (ix3 (1 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
theorem ld_a2 (x0 : Vec Ideal S4x2000x256 .f32) (p : Fin 2000) (f : Fin 256) : View.ld x0 r0_4 (ix3 (0 : Fin 1) p f) = x0 (ix3 (2 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
theorem ld_a3 (x0 : Vec Ideal S4x2000x256 .f32) (p : Fin 2000) (f : Fin 256) : View.ld x0 r0_6 (ix3 (0 : Fin 1) p f) = x0 (ix3 (3 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
/-- Slab `r` of the loaded weight, read at position `f` and column `q`. -/
theorem ld_w0 (x1 : Vec Ideal S4x256x128 .bf16) (f : Fin 256) (q : Fin 128) : View.ld x1 r0_1 (ix3 (0 : Fin 1) f q) = x1 (ix3 (0 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
theorem ld_w1 (x1 : Vec Ideal S4x256x128 .bf16) (f : Fin 256) (q : Fin 128) : View.ld x1 r0_3 (ix3 (0 : Fin 1) f q) = x1 (ix3 (1 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
theorem ld_w2 (x1 : Vec Ideal S4x256x128 .bf16) (f : Fin 256) (q : Fin 128) : View.ld x1 r0_5 (ix3 (0 : Fin 1) f q) = x1 (ix3 (2 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
theorem ld_w3 (x1 : Vec Ideal S4x256x128 .bf16) (f : Fin 256) (q : Fin 128) : View.ld x1 r0_7 (ix3 (0 : Fin 1) f q) = x1 (ix3 (3 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
/-- The bias, loaded whole. -/
theorem ld_b (x2 : Vec Ideal S128 .f32) (q : Fin 128) : View.ld x2 r0_8 (ix1 q) = x2 (ix1 q) :=
  congrArg x2 (funext fun a => Fin.ext (by
    match a with
    | ⟨0, _⟩ => show 0 + 1 * q.val = q.val; omega))

/-- The bias added to every row, then the change of float format (the identity on extended reals). -/
theorem bias_apply (v28 : FVec Ideal S2000x128 .f32) (v29 : Vec Ideal S128 .f32) (p : Fin 2000) (q : Fin 128) :
    k0_pay1 v28 v29 (ix2 p q) = v28 (ix2 p q) + v29 (ix1 q) := by
  unfold k0_pay1
  show v28 (ix2 p q) + (broadcastTo S2000x128 (shapeCast S1x128 v29 shapeCasts_S128_S1x128) broadcasts_S1x128_S2000x128) (ix2 p q) = _
  rw [broadcastTo_1b_ab_apply, shapeCast_a_1a_apply]

/-- The linear part of what one grid point computes, as a function of the three loaded blocks: entry `(p, q)` is the
    slab-wise accumulation of row `p` against column `q`, plus the bias at `q`. -/
def block (x0 : Vec Ideal S4x2000x256 .f32) (x1 : Vec Ideal S4x256x128 .bf16) (x2 : Vec Ideal S128 .f32) : S2000x128.Idx → EReal :=
  fun j => Cert.Spec.lin4 (fun r f => x0 (ix3 r (⟨(j 0).val, (j 0).isLt⟩ : Fin 2000) f))
    (fun r f => x1 (ix3 r f (⟨(j 1).val, (j 1).isLt⟩ : Fin 128))) (x2 (ix1 (⟨(j 1).val, (j 1).isLt⟩ : Fin 128)))

theorem lin_apply (x0 : Vec Ideal S4x2000x256 .f32) (x1 : Vec Ideal S4x256x128 .bf16) (x2 : Vec Ideal S128 .f32) (p : Fin 2000) (q : Fin 128) :
    k0_pay1 (k0_pay2 (View.ld x0 r0_0) (View.ld x1 r0_1) (View.ld x0 r0_2) (View.ld x1 r0_3) (View.ld x0 r0_4) (View.ld x1 r0_5) (View.ld x0 r0_6) (View.ld x1 r0_7)) (View.ld x2 r0_8) (ix2 p q)
      = block x0 x1 x2 (ix2 p q) := by
  rw [bias_apply, acc_apply]
  have s0 : ∑ f : Fin 256, View.ld x0 r0_0 (ix3 (0 : Fin 1) p f) * View.ld x1 r0_1 (ix3 (0 : Fin 1) f q)
      = ∑ f : Fin 256, x0 (ix3 (0 : Fin 4) p f) * x1 (ix3 (0 : Fin 4) f q) := Finset.sum_congr rfl fun f _ => by rw [ld_a0, ld_w0]
  have s1 : ∑ f : Fin 256, View.ld x0 r0_2 (ix3 (0 : Fin 1) p f) * View.ld x1 r0_3 (ix3 (0 : Fin 1) f q)
      = ∑ f : Fin 256, x0 (ix3 (1 : Fin 4) p f) * x1 (ix3 (1 : Fin 4) f q) := Finset.sum_congr rfl fun f _ => by rw [ld_a1, ld_w1]
  have s2 : ∑ f : Fin 256, View.ld x0 r0_4 (ix3 (0 : Fin 1) p f) * View.ld x1 r0_5 (ix3 (0 : Fin 1) f q)
      = ∑ f : Fin 256, x0 (ix3 (2 : Fin 4) p f) * x1 (ix3 (2 : Fin 4) f q) := Finset.sum_congr rfl fun f _ => by rw [ld_a2, ld_w2]
  have s3 : ∑ f : Fin 256, View.ld x0 r0_6 (ix3 (0 : Fin 1) p f) * View.ld x1 r0_7 (ix3 (0 : Fin 1) f q)
      = ∑ f : Fin 256, x0 (ix3 (3 : Fin 4) p f) * x1 (ix3 (3 : Fin 4) f q) := Finset.sum_congr rfl fun f _ => by rw [ld_a3, ld_w3]
  rw [s0, s1, s2, s3, ld_b]
  rfl

theorem out_eq_block (x0 : Vec Ideal S4x2000x256 .f32) (x1 : Vec Ideal S4x256x128 .bf16) (x2 : Vec Ideal S128 .f32) :
    out0_3 x0 x1 x2 = block x0 x1 x2 := by
  funext j
  obtain ⟨p, q, rfl⟩ : ∃ (p : Fin 2000) (q : Fin 128), j = ix2 p q := ⟨j 0, j 1, eq_ix2 j⟩
  unfold out0_3
  rw [View.canon_unit_zero hz2]
  exact lin_apply x0 x1 x2 p q

/-! ## From blocks to the array -/

/-- The layer's whole output array as one function of the aggregate `A` (slab, node, position), the weight `W`
    (slab, position, column) and the bias: at node `n` and column `q` the slab-wise accumulation of the node's four
    aggregate rows against column `q` of the four weight slabs, plus the bias at `q`. -/
def layer (A : Vec Ideal S4x50000x256 .f32) (W : Vec Ideal S4x256x128 .bf16) (b : Vec Ideal S128 .f32) : S50000x128.Idx → EReal :=
  fun i => Cert.Spec.lin4 (fun r f => A (ix3 r (⟨(i 0).val, (i 0).isLt⟩ : Fin 50000) f))
    (fun r f => W (ix3 r f (⟨(i 1).val, (i 1).isLt⟩ : Fin 128))) (b (ix1 (⟨(i 1).val, (i 1).isLt⟩ : Fin 128)))

/-- A stored block agrees with the whole-array function at the array index its entry lands on, when the loaded
    aggregate block holds the rows of that node and the weight and bias are loaded whole. -/
theorem block_eq_layer (A : Vec Ideal S4x50000x256 .f32) (W : Vec Ideal S4x256x128 .bf16) (b : Vec Ideal S128 .f32)
    (x0 : Vec Ideal S4x2000x256 .f32) (x1 : Vec Ideal S4x256x128 .bf16) (x2 : Vec Ideal S128 .f32)
    (j : S2000x128.Idx) (i : S50000x128.Idx) (hq : (i 1).val = (j 1).val)
    (h0 : ∀ (r : Fin 4) (f : Fin 256), x0 (ix3 r (⟨(j 0).val, (j 0).isLt⟩ : Fin 2000) f) = A (ix3 r (⟨(i 0).val, (i 0).isLt⟩ : Fin 50000) f))
    (h1 : x1 = W) (h2 : x2 = b) : block x0 x1 x2 j = layer A W b i := by
  subst h1 h2
  have e : (⟨(i 1).val, (i 1).isLt⟩ : Fin 128) = ⟨(j 1).val, (j 1).isLt⟩ := Fin.ext hq
  unfold block layer
  rw [e]
  simp only [h0]

section Region

variable (V : (c : Dev nD) → (b : Ref sig .tc) → Buf (Elt Ideal) ((c : Thread nD τ).loc b))

/-- The block index maps over the grid: the aggregate's block moves along the node axis with the output's; the weight
    and the bias have one block. -/
theorem idx_facts : ∀ t : Fin cfg0.N, win0_0.index t (0 : Fin 3) = 0 ∧ win0_0.index t (1 : Fin 3) = win0_3.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0 ∧ win0_3.index t (1 : Fin 2) = 0 :=
  (by decide +kernel : ∀ t : Fin grid0.N, _)

/-- Every one of the 25 row blocks of the output is some grid point's. -/
theorem idx_onto : ∀ (q0 : Fin 25), ∃ t : Fin cfg0.N, win0_3.index t = ![q0.val, 0] :=
  (by decide +kernel : ∀ (q0 : Fin 25), ∃ t : Fin grid0.N, win0_3.index t = ![q0.val, 0])

/-- The weight's one block is the whole weight array. -/
theorem blk_w (c : Dev nD) (t : Fin cfg0.N) : iblk0 V c 1 t = V c main_call0_v49 := by
  obtain ⟨e0, e1, e2, e3, e4, e5, e6, e7⟩ := idx_facts t
  funext y
  show V c main_call0_v49 (((cfg0.win 1).blk t).view.emb y) = V c main_call0_v49 y
  refine congrArg (V c main_call0_v49) (funext fun a => Fin.ext ?_)
  match a with
  | ⟨0, _⟩ => show win0_1.index t (0 : Fin 3) * 4 + 1 * (y 0).val = (y 0).val; omega
  | ⟨1, _⟩ => show win0_1.index t (1 : Fin 3) * 256 + 1 * (y 1).val = (y 1).val; omega
  | ⟨2, _⟩ => show win0_1.index t (2 : Fin 3) * 128 + 1 * (y 2).val = (y 2).val; omega

/-- The bias's one block is the whole bias array. -/
theorem blk_b (c : Dev nD) (t : Fin cfg0.N) : iblk0 V c 2 t = V c main_arg4 := by
  obtain ⟨e0, e1, e2, e3, e4, e5, e6, e7⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 1) * 128 + 1 * (y 0).val = (y 0).val; omega

/-- What grid point `t` writes back is block `t` of the whole-array function of the arrays the region finds. -/
theorem flushed_eq (c : Dev nD) (t : Fin cfg0.N) :
    (dat0 V c).flushed 3 t = ((cfg0.win 3).blk t).view.read (Elt Ideal) (layer (V c main_call0_v47) (V c main_call0_v49) (V c main_arg4)) := by
  show (cfg0.win 3).cut (grid0.coords t) ((dat0 V c).after 3 t) = _
  rw [after0_3, show out0_3 (iblk0 V c 0 t) (iblk0 V c 1 t) (iblk0 V c 2 t) = _ from out_eq_block (iblk0 V c 0 t) (iblk0 V c 1 t) (iblk0 V c 2 t)]
  obtain ⟨e0, e1, e2, e3, e4, e5, e6, e7⟩ := idx_facts t
  funext j
  show block (iblk0 V c 0 t) (iblk0 V c 1 t) (iblk0 V c 2 t) j = layer (V c main_call0_v47) (V c main_call0_v49) (V c main_arg4) (((cfg0.win 3).blk t).view.emb j)
  refine block_eq_layer _ _ _ _ _ _ j _ ?_ ?_ (blk_w V c t) (blk_b V c t)
  · show win0_3.index t (1 : Fin 2) * 128 + 1 * (j 1).val = (j 1).val; omega
  · intro r f
    show V c main_call0_v47 (((cfg0.win 0).blk t).view.emb (ix3 r (⟨(j 0).val, (j 0).isLt⟩ : Fin 2000) f)) = _
    refine congrArg (V c main_call0_v47) (funext fun a => Fin.ext ?_)
    match a with
    | ⟨0, _⟩ => show win0_0.index t (0 : Fin 3) * 4 + 1 * r.val = r.val; omega
    | ⟨1, _⟩ => show win0_0.index t (1 : Fin 3) * 2000 + 1 * (j 0).val = win0_3.index t (0 : Fin 2) * 2000 + 1 * (j 0).val; omega
    | ⟨2, _⟩ => show win0_0.index t (2 : Fin 3) * 256 + 1 * f.val = f.val; omega

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_call0_v50).slice (win0_3.rect t)).set ↔ _
  rw [View.set_slice_whole, Rect.mem_set_unit]
  exact Iff.rfl

/-- The 25 row blocks of 2000 nodes tile the 50000 nodes: every index is in the block of the point `n / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the region: the whole-array function of the arrays the region finds. -/
theorem final (c : Dev nD) : (dat0 V c).arrAt 3 cfg0.N = layer (V c main_call0_v47) (V c main_call0_v49) (V c main_arg4) :=
  (dat0 V c).arrAt_eq_of_cover 3 _ (fun t _ => flushed_eq V c t) cover

end Region

end Cert.KernelIdeal.Layer1

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LibRowReduce.lean ====
/-
  Reductions along the rows of a two-axis table, read at a row.

  Reducing an [a, b] table over its second axis gives, at row p, the sum (or the running maximum from the accumulator's
  value) of the b entries of that row: the general one-axis laws with the inserted coordinate spelt out.
-/
import Idealize.ShloMosaic.PureOps.Ideal.Laws
import Idealize.ShloMosaic.Lib.ValueIdx

noncomputable section

namespace Idealize.ShloMosaic.RowReduce

open Idealize.ShloMosaic Idealize.ShloMosaic.ValueIdx
open scoped BigOperators

variable {φ : FTy}

/-- Putting the column coordinate back into a row index. -/
theorem lift_row {a b : ℕ} (h : (⟨2, ![a, b]⟩ : Shape).Reduces [(1 : Fin 2)] ⟨1, ![a]⟩) (p : Fin a) (k : Fin b) :
    h.lift (ix1 p) k = ix2 p k := by
  funext c
  apply Fin.ext
  show h.liftVal (ix1 p) k.val c = (ix2 p k c).val
  unfold Shape.Reduces.liftVal
  match c with
  | ⟨0, _⟩ => first | rfl | simp
  | ⟨1, _⟩ => first | rfl | simp

/-- The sum over a row. -/
theorem rowSum_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ k : Fin b, src (h.lift (ix1 p) k) = _
  exact Finset.sum_congr rfl fun k _ => congrArg src (lift_row h p k)

/-- The maximum over a row, folded from the accumulator's value. -/
theorem rowMax_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun k => src (h.lift (ix1 p) k)) = _
  exact congrArg (fun f : Fin b → EReal => (Finset.univ : Finset (Fin b)).fold max (Ideal.ofBits φ acc) f) (funext fun k => congrArg src (lift_row h p k))

end Idealize.ShloMosaic.RowReduce

end
-- ==== Proof.Layer2.lean ====
/-
  The second layer's kernel region: what the output array holds after the 25 grid points have run.

  As in the first layer a grid point loads 2000 rows of the four relation-wise aggregates (now of length 128), the whole
  `[4, 128, 16]` weight and the bias, and forms the linear block `((((0 + a₀·w₀) + a₁·w₁) + a₂·w₂) + a₃·w₃) + bias`; it then
  takes the log-softmax of every row of 16: the row shifted by its maximum, minus the logarithm of the sum of the
  exponentials of the shifted row. A row's log-softmax depends on that row only, so the stored block is again the
  restriction of one function of the three arrays (`layerSm`) and the 25 row blocks tile the 50000 nodes.
-/
import proofs.«148697_j30640296689801_2_alg».proof.Proof.Gen.KernelIdeal.Frame
import proofs.«148697_j30640296689801_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«148697_j30640296689801_2_alg».proof.Proof.LibColumnLayout
import proofs.«148697_j30640296689801_2_alg».proof.Proof.LibRowReduce

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem

/-! ## One slab's matrix product at an entry -/

theorem lhs_row (i : S2000x16.Idx) (k : dot_S2000x128_S128x16_S2000x16_1_0_0_1_n_n.contr.Idx) :
    (dot_S2000x128_S128x16_S2000x16_1_0_0_1_n_n.lhsIdx i k 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_pos (i : S2000x16.Idx) (k : dot_S2000x128_S128x16_S2000x16_1_0_0_1_n_n.contr.Idx) :
    (dot_S2000x128_S128x16_S2000x16_1_0_0_1_n_n.lhsIdx i k 1).val = (k ⟨0, by decide⟩).val :=
  dot_S2000x128_S128x16_S2000x16_1_0_0_1_n_n.lhsIdx_val_of_single rfl i k
theorem rhs_pos (i : S2000x16.Idx) (k : dot_S2000x128_S128x16_S2000x16_1_0_0_1_n_n.contr.Idx) :
    (dot_S2000x128_S128x16_S2000x16_1_0_0_1_n_n.rhsIdx i k 0).val = (k ⟨0, by decide⟩).val :=
  dot_S2000x128_S128x16_S2000x16_1_0_0_1_n_n.rhsIdx_val_of_single rfl i k
theorem rhs_col (i : S2000x16.Idx) (k : dot_S2000x128_S128x16_S2000x16_1_0_0_1_n_n.contr.Idx) :
    (dot_S2000x128_S128x16_S2000x16_1_0_0_1_n_n.rhsIdx i k 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- The product of a row block with one weight slab, accumulated into zero, is at entry `(p, q)` the dot product of
    row `p` with column `q`. -/
theorem slab_apply (l : FVec Ideal S2000x128 .bf16) (r : FVec Ideal S128x16 .bf16) (p : Fin 2000) (q : Fin 16) :
    matmul dot_S2000x128_S128x16_S2000x16_1_0_0_1_n_n none l r (constant S2000x16 .f32 0x00000000#32) (ix2 p q)
      = ∑ f : Fin 128, l (ix2 p f) * r (ix2 f q) := by
  simp only [matmul]
  rw [Ideal.matmul_constant_zero_apply, ← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx (ix2 p q) ((ValueIdx.contrEquiv1 dot_S2000x128_S128x16_S2000x16_1_0_0_1_n_n 128 rfl rfl).symm k) = ix2 p k := funext fun a => Fin.ext (by
    match a with
    | ⟨0, _⟩ => exact lhs_row _ _
    | ⟨1, _⟩ => exact (lhs_pos _ _).trans hk)
  have er : dot_S2000x128_S128x16_S2000x16_1_0_0_1_n_n.rhsIdx (ix2 p q) ((ValueIdx.contrEquiv1 dot_S2000x128_S128x16_S2000x16_1_0_0_1_n_n 128 rfl rfl).symm k) = ix2 k q := funext fun a => Fin.ext (by
    match a with
    | ⟨0, _⟩ => exact (rhs_pos _ _).trans hk
    | ⟨1, _⟩ => exact rhs_col _ _)
  rw [el, er]

/-- The four slab products accumulated from zero, at an entry. -/
theorem acc_apply (v1 v8 v15 v22 : Vec Ideal S1x2000x128 .f32) (v4 v11 v18 v25 : Vec Ideal S1x128x16 .bf16) (p : Fin 2000) (q : Fin 16) :
    k1_pay2 v1 v4 v8 v11 v15 v18 v22 v25 (ix2 p q)
      = (((0 + ∑ f : Fin 128, v1 (ix3 (0 : Fin 1) p f) * v4 (ix3 (0 : Fin 1) f q)) + ∑ f : Fin 128, v8 (ix3 (0 : Fin 1) p f) * v11 (ix3 (0 : Fin 1) f q))
          + ∑ f : Fin 128, v15 (ix3 (0 : Fin 1) p f) * v18 (ix3 (0 : Fin 1) f q)) + ∑ f : Fin 128, v22 (ix3 (0 : Fin 1) p f) * v25 (ix3 (0 : Fin 1) f q) := by
  unfold k1_pay2
  simp only [addf_apply, broadcast_apply, slab_apply, truncf_apply, shapeCast_1ab_ab_apply]
  have hz : (FloatOps.ofBits (F := Ideal) .f32 0x00000000#32 : EReal) = 0 := Ideal.ofBits_zero_f32
  rw [hz]

/-! ## The stored block at an entry -/

theorem hz2 : (![0, 0] : Fin 2 → Nat) = fun _ => 0 := funext fun a => by fin_cases a <;> rfl

/-- Slab `r` of a loaded aggregate block, read at row `p` and position `f`. -/
theorem ld_a0 (x0 : Vec Ideal S4x2000x128 .f32) (p : Fin 2000) (f : Fin 128) : View.ld x0 r1_0 (ix3 (0 : Fin 1) p f) = x0 (ix3 (0 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
theorem ld_a1 (x0 : Vec Ideal S4x2000x128 .f32) (p : Fin 2000) (f : Fin 128) : View.ld x0 r1_2 (ix3 (0 : Fin 1) p f) = x0 (ix3 (1 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
theorem ld_a2 (x0 : Vec Ideal S4x2000x128 .f32) (p : Fin 2000) (f : Fin 128) : View.ld x0 r1_4 (ix3 (0 : Fin 1) p f) = x0 (ix3 (2 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
theorem ld_a3 (x0 : Vec Ideal S4x2000x128 .f32) (p : Fin 2000) (f : Fin 128) : View.ld x0 r1_6 (ix3 (0 : Fin 1) p f) = x0 (ix3 (3 : Fin 4) p f) :=
  congrArg x0 (funext fun a => Fin.ext (by
    match a with
    | ⟨0, _⟩ => rfl
    | ⟨1, _⟩ => show 0 + 1 * p.val = p.val; omega
    | ⟨2, _⟩ => show 0 + 1 * f.val = f.val; omega))
/-- Slab `r` of the loaded weight, read at position `f` and column `q`. -/
theorem ld_w0 (x1 : Vec Ideal S4x128x16 .bf16) (f : Fin 128) (q : Fin 16) : View.ld x1 r1_1 (ix3 (0 : Fin 1) f q) = x1 (ix3 (0 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
theorem ld_w1 (x1 : Vec Ideal S4x128x16 .bf16) (f : Fin 128) (q : Fin 16) : View.ld x1 r1_3 (ix3 (0 : Fin 1) f q) = x1 (ix3 (1 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
theorem ld_w2 (x1 : Vec Ideal S4x128x16 .bf16) (f : Fin 128) (q : Fin 16) : View.ld x1 r1_5 (ix3 (0 : Fin 1) f q) = x1 (ix3 (2 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
theorem ld_w3 (x1 : Vec Ideal S4x128x16 .bf16) (f : Fin 128) (q : Fin 16) : View.ld x1 r1_7 (ix3 (0 : Fin 1) f q) = x1 (ix3 (3 : Fin 4) f q) :=
  congrArg x1 (funext fun a => Fin.ext (by
    match a with
    | ⟨0, _⟩ => rfl
    | ⟨1, _⟩ => show 0 + 1 * f.val = f.val; omega
    | ⟨2, _⟩ => show 0 + 1 * q.val = q.val; omega))
/-- The bias, loaded whole. -/
theorem ld_b (x2 : Vec Ideal S16 .f32) (q : Fin 16) : View.ld x2 r1_8 (ix1 q) = x2 (ix1 q) :=
  congrArg x2 (funext fun a => Fin.ext (by
    match a with
    | ⟨0, _⟩ => show 0 + 1 * q.val = q.val; omega))

/-! ## The body's value split into its linear part and the log-softmax that follows it -/

/-- The linear part: the accumulated products plus the bias spread over the rows. -/
def lin1 (v28 : FVec Ideal S2000x16 .f32) (v29 : Vec Ideal S16 .f32) : FVec Ideal S2000x16 .f32 :=
  addf v28 (broadcastTo S2000x16 (shapeCast S1x16 v29 shapeCasts_S16_S1x16) broadcasts_S1x16_S2000x16)

/-- The running maximum of every row, from the pattern of `-∞`. -/
def rowMaxV (z : FVec Ideal S2000x16 .f32) : FVec Ideal S2000 .f32 :=
  multiReduction .maximumf [1] S2000 z 0xFF800000#32 reduces_S2000x16_S2000 (.inl rfl) rfl
/-- The sum of every row. -/
def rowSumV (e : FVec Ideal S2000x16 .f32) : FVec Ideal S2000 .f32 :=
  multiReduction .add [1] S2000 e 0x00000000#32 reduces_S2000x16_S2000 (.inl rfl) rfl
/-- One value per row spread over the row's 16 entries. -/
def spread (v : FVec Ideal S2000 .f32) : FVec Ideal S2000x16 .f32 :=
  broadcastTo S2000x16 (shapeCast S2000x1 v shapeCasts_S2000_S2000x1) broadcasts_S2000x1_S2000x16

/-- The log-softmax epilogue on a block of rows. -/
def epi (z : FVec Ideal S2000x16 .f32) : FVec Ideal S2000x16 .f32 :=
  subf (subf z (spread (rowMaxV z)))
    (broadcastTo S2000x16 (log (shapeCast S2000x1 (rowSumV (exp (subf z (spread (rowMaxV z))))) shapeCasts_S2000_S2000x1)) broadcasts_S2000x1_S2000x16)

theorem pay1_eq (v28 : FVec Ideal S2000x16 .f32) (v29 : Vec Ideal S16 .f32) : k1_pay1 v28 v29 = epi (lin1 v28 v29) := rfl

theorem rowMaxV_apply (z : FVec Ideal S2000x16 .f32) (p : Fin 2000) :
    rowMaxV z (ix1 p) = Cert.Spec.rowMax (Ideal.ofBits .f32 0xFF800000#32) (fun k => z (ix2 p k)) :=
  RowReduce.rowMax_apply z _ _ _ _ p
theorem rowSumV_apply (e : FVec Ideal S2000x16 .f32) (p : Fin 2000) : rowSumV e (ix1 p) = ∑ c : Fin 16, e (ix2 p c) :=
  RowReduce.rowSum_apply e _ _ _ _ p
theorem spread_apply (v : FVec Ideal S2000 .f32) (p : Fin 2000) (q : Fin 16) : spread v (ix2 p q) = v (ix1 p) := by
  unfold spread
  rw [ColumnLayout.broadcastTo_a1_ab_apply, ColumnLayout.shapeCast_a_a1_apply]

/-- The epilogue at an entry is the log-softmax of that entry's row. -/
theorem epi_apply (z : FVec Ideal S2000x16 .f32) (p : Fin 2000) (q : Fin 16) :
    epi z (ix2 p q) = Cert.Spec.logSoftmax (Ideal.ofBits .f32 0xFF800000#32) (fun k => z (ix2 p k)) q := by
  have hs : ∀ c : Fin 16, (exp (subf z (spread (rowMaxV z)))) (ix2 p c)
      = Ideal.exp (z (ix2 p c) - Cert.Spec.rowMax (Ideal.ofBits .f32 0xFF800000#32) (fun k => z (ix2 p k))) := fun c => by
    show Ideal.exp (z (ix2 p c) - spread (rowMaxV z) (ix2 p c)) = _
    rw [spread_apply, rowMaxV_apply]
  unfold epi
  show (z (ix2 p q) - spread (rowMaxV z) (ix2 p q))
      - (broadcastTo S2000x16 (log (shapeCast S2000x1 (rowSumV (exp (subf z (spread (rowMaxV z))))) shapeCasts_S2000_S2000x1)) broadcasts_S2000x1_S2000x16) (ix2 p q) = _
  rw [ColumnLayout.broadcastTo_a1_ab_apply]
  show (z (ix2 p q) - spread (rowMaxV z) (ix2 p q))
      - Ideal.log ((shapeCast S2000x1 (rowSumV (exp (subf z (spread (rowMaxV z))))) shapeCasts_S2000_S2000x1) (ix2 p (0 : Fin 1))) = _
  rw [ColumnLayout.shapeCast_a_a1_apply, rowSumV_apply, spread_apply, rowMaxV_apply, Finset.sum_congr rfl (fun c _ => hs c)]
  rfl

/-- The bias added to every row, then the change of float format (the identity on extended reals). -/
theorem bias_apply (v28 : FVec Ideal S2000x16 .f32) (v29 : Vec Ideal S16 .f32) (p : Fin 2000) (q : Fin 16) :
    lin1 v28 v29 (ix2 p q) = v28 (ix2 p q) + v29 (ix1 q) := by
  unfold lin1
  show v28 (ix2 p q) + (broadcastTo S2000x16 (shapeCast S1x16 v29 shapeCasts_S16_S1x16) broadcasts_S1x16_S2000x16) (ix2 p q) = _
  rw [broadcastTo_1b_ab_apply, shapeCast_a_1a_apply]

/-- The linear part of what one grid point computes, as a function of the three loaded blocks: entry `(p, q)` is the
    slab-wise accumulation of row `p` against column `q`, plus the bias at `q`. -/
def block (x0 : Vec Ideal S4x2000x128 .f32) (x1 : Vec Ideal S4x128x16 .bf16) (x2 : Vec Ideal S16 .f32) : S2000x16.Idx → EReal :=
  fun j => Cert.Spec.lin4 (fun r f => x0 (ix3 r (⟨(j 0).val, (j 0).isLt⟩ : Fin 2000) f))
    (fun r f => x1 (ix3 r f (⟨(j 1).val, (j 1).isLt⟩ : Fin 16))) (x2 (ix1 (⟨(j 1).val, (j 1).isLt⟩ : Fin 16)))

theorem lin_apply (x0 : Vec Ideal S4x2000x128 .f32) (x1 : Vec Ideal S4x128x16 .bf16) (x2 : Vec Ideal S16 .f32) (p : Fin 2000) (q : Fin 16) :
    lin1 (k1_pay2 (View.ld x0 r1_0) (View.ld x1 r1_1) (View.ld x0 r1_2) (View.ld x1 r1_3) (View.ld x0 r1_4) (View.ld x1 r1_5) (View.ld x0 r1_6) (View.ld x1 r1_7)) (View.ld x2 r1_8) (ix2 p q)
      = block x0 x1 x2 (ix2 p q) := by
  rw [bias_apply, acc_apply]
  have s0 : ∑ f : Fin 128, View.ld x0 r1_0 (ix3 (0 : Fin 1) p f) * View.ld x1 r1_1 (ix3 (0 : Fin 1) f q)
      = ∑ f : Fin 128, x0 (ix3 (0 : Fin 4) p f) * x1 (ix3 (0 : Fin 4) f q) := Finset.sum_congr rfl fun f _ => by rw [ld_a0, ld_w0]
  have s1 : ∑ f : Fin 128, View.ld x0 r1_2 (ix3 (0 : Fin 1) p f) * View.ld x1 r1_3 (ix3 (0 : Fin 1) f q)
      = ∑ f : Fin 128, x0 (ix3 (1 : Fin 4) p f) * x1 (ix3 (1 : Fin 4) f q) := Finset.sum_congr rfl fun f _ => by rw [ld_a1, ld_w1]
  have s2 : ∑ f : Fin 128, View.ld x0 r1_4 (ix3 (0 : Fin 1) p f) * View.ld x1 r1_5 (ix3 (0 : Fin 1) f q)
      = ∑ f : Fin 128, x0 (ix3 (2 : Fin 4) p f) * x1 (ix3 (2 : Fin 4) f q) := Finset.sum_congr rfl fun f _ => by rw [ld_a2, ld_w2]
  have s3 : ∑ f : Fin 128, View.ld x0 r1_6 (ix3 (0 : Fin 1) p f) * View.ld x1 r1_7 (ix3 (0 : Fin 1) f q)
      = ∑ f : Fin 128, x0 (ix3 (3 : Fin 4) p f) * x1 (ix3 (3 : Fin 4) f q) := Finset.sum_congr rfl fun f _ => by rw [ld_a3, ld_w3]
  rw [s0, s1, s2, s3, ld_b]
  rfl

/-- What one grid point stores: the log-softmax, row by row, of the linear block. -/
def blockSm (x0 : Vec Ideal S4x2000x128 .f32) (x1 : Vec Ideal S4x128x16 .bf16) (x2 : Vec Ideal S16 .f32) : S2000x16.Idx → EReal :=
  fun j => Cert.Spec.logSoftmax (Ideal.ofBits .f32 0xFF800000#32) (fun k => block x0 x1 x2 (ix2 (⟨(j 0).val, (j 0).isLt⟩ : Fin 2000) k)) (⟨(j 1).val, (j 1).isLt⟩ : Fin 16)

theorem out_eq_blockSm (x0 : Vec Ideal S4x2000x128 .f32) (x1 : Vec Ideal S4x128x16 .bf16) (x2 : Vec Ideal S16 .f32) :
    out1_3 x0 x1 x2 = blockSm x0 x1 x2 := by
  funext j
  obtain ⟨p, q, rfl⟩ : ∃ (p : Fin 2000) (q : Fin 16), j = ix2 p q := ⟨j 0, j 1, eq_ix2 j⟩
  unfold out1_3
  rw [View.canon_unit_zero hz2, pay1_eq, epi_apply]
  unfold blockSm
  exact congrArg (fun z => Cert.Spec.logSoftmax (Ideal.ofBits .f32 0xFF800000#32) z q) (funext fun k => lin_apply x0 x1 x2 p k)

/-! ## From blocks to the array -/

/-- The layer's whole output array as one function of the aggregate `A` (slab, node, position), the weight `W`
    (slab, position, column) and the bias: at node `n` and column `q` the slab-wise accumulation of the node's four
    aggregate rows against column `q` of the four weight slabs, plus the bias at `q`. -/
def layer (A : Vec Ideal S4x50000x128 .f32) (W : Vec Ideal S4x128x16 .bf16) (b : Vec Ideal S16 .f32) : S50000x16.Idx → EReal :=
  fun i => Cert.Spec.lin4 (fun r f => A (ix3 r (⟨(i 0).val, (i 0).isLt⟩ : Fin 50000) f))
    (fun r f => W (ix3 r f (⟨(i 1).val, (i 1).isLt⟩ : Fin 16))) (b (ix1 (⟨(i 1).val, (i 1).isLt⟩ : Fin 16)))

/-- A stored block agrees with the whole-array function at the array index its entry lands on, when the loaded
    aggregate block holds the rows of that node and the weight and bias are loaded whole. -/
theorem block_eq_layer (A : Vec Ideal S4x50000x128 .f32) (W : Vec Ideal S4x128x16 .bf16) (b : Vec Ideal S16 .f32)
    (x0 : Vec Ideal S4x2000x128 .f32) (x1 : Vec Ideal S4x128x16 .bf16) (x2 : Vec Ideal S16 .f32)
    (j : S2000x16.Idx) (i : S50000x16.Idx) (hq : (i 1).val = (j 1).val)
    (h0 : ∀ (r : Fin 4) (f : Fin 128), x0 (ix3 r (⟨(j 0).val, (j 0).isLt⟩ : Fin 2000) f) = A (ix3 r (⟨(i 0).val, (i 0).isLt⟩ : Fin 50000) f))
    (h1 : x1 = W) (h2 : x2 = b) : block x0 x1 x2 j = layer A W b i := by
  subst h1 h2
  have e : (⟨(i 1).val, (i 1).isLt⟩ : Fin 16) = ⟨(j 1).val, (j 1).isLt⟩ := Fin.ext hq
  unfold block layer
  rw [e]
  simp only [h0]

/-- The second layer's whole output array: the log-softmax, row by row, of the linear layer. -/
def layerSm (A : Vec Ideal S4x50000x128 .f32) (W : Vec Ideal S4x128x16 .bf16) (b : Vec Ideal S16 .f32) : S50000x16.Idx → EReal :=
  fun i => Cert.Spec.logSoftmax (Ideal.ofBits .f32 0xFF800000#32) (fun k => layer A W b (ix2 (⟨(i 0).val, (i 0).isLt⟩ : Fin 50000) k)) (⟨(i 1).val, (i 1).isLt⟩ : Fin 16)

theorem blockSm_eq_layerSm (A : Vec Ideal S4x50000x128 .f32) (W : Vec Ideal S4x128x16 .bf16) (b : Vec Ideal S16 .f32)
    (x0 : Vec Ideal S4x2000x128 .f32) (x1 : Vec Ideal S4x128x16 .bf16) (x2 : Vec Ideal S16 .f32)
    (j : S2000x16.Idx) (i : S50000x16.Idx) (hq : (i 1).val = (j 1).val)
    (h0 : ∀ (r : Fin 4) (f : Fin 128), x0 (ix3 r (⟨(j 0).val, (j 0).isLt⟩ : Fin 2000) f) = A (ix3 r (⟨(i 0).val, (i 0).isLt⟩ : Fin 50000) f))
    (h1 : x1 = W) (h2 : x2 = b) : blockSm x0 x1 x2 j = layerSm A W b i := by
  have e : (⟨(i 1).val, (i 1).isLt⟩ : Fin 16) = ⟨(j 1).val, (j 1).isLt⟩ := Fin.ext hq
  unfold blockSm layerSm
  rw [e]
  exact congrArg (fun z => Cert.Spec.logSoftmax (Ideal.ofBits .f32 0xFF800000#32) z (⟨(j 1).val, (j 1).isLt⟩ : Fin 16)) (funext fun k =>
    block_eq_layer A W b x0 x1 x2 (ix2 (⟨(j 0).val, (j 0).isLt⟩ : Fin 2000) k) (ix2 (⟨(i 0).val, (i 0).isLt⟩ : Fin 50000) k) rfl h0 h1 h2)

section Region

variable (V : (c : Dev nD) → (b : Ref sig .tc) → Buf (Elt Ideal) ((c : Thread nD τ).loc b))

/-- The block index maps over the grid: the aggregate's block moves along the node axis with the output's; the weight
    and the bias have one block. -/
theorem idx_facts : ∀ t : Fin cfg1.N, win1_0.index t (0 : Fin 3) = 0 ∧ win1_0.index t (1 : Fin 3) = win1_3.index t (0 : Fin 2) ∧ win1_0.index t (2 : Fin 3) = 0
    ∧ win1_1.index t (0 : Fin 3) = 0 ∧ win1_1.index t (1 : Fin 3) = 0 ∧ win1_1.index t (2 : Fin 3) = 0
    ∧ win1_2.index t (0 : Fin 1) = 0 ∧ win1_3.index t (1 : Fin 2) = 0 :=
  (by decide +kernel : ∀ t : Fin grid1.N, _)

/-- Every one of the 25 row blocks of the output is some grid point's. -/
theorem idx_onto : ∀ (q0 : Fin 25), ∃ t : Fin cfg1.N, win1_3.index t = ![q0.val, 0] :=
  (by decide +kernel : ∀ (q0 : Fin 25), ∃ t : Fin grid1.N, win1_3.index t = ![q0.val, 0])

/-- The weight's one block is the whole weight array. -/
theorem blk_w (c : Dev nD) (t : Fin cfg1.N) : iblk1 V c 1 t = V c main_call0_v70 := by
  obtain ⟨e0, e1, e2, e3, e4, e5, e6, e7⟩ := idx_facts t
  funext y
  show V c main_call0_v70 (((cfg1.win 1).blk t).view.emb y) = V c main_call0_v70 y
  refine congrArg (V c main_call0_v70) (funext fun a => Fin.ext ?_)
  match a with
  | ⟨0, _⟩ => show win1_1.index t (0 : Fin 3) * 4 + 1 * (y 0).val = (y 0).val; omega
  | ⟨1, _⟩ => show win1_1.index t (1 : Fin 3) * 128 + 1 * (y 1).val = (y 1).val; omega
  | ⟨2, _⟩ => show win1_1.index t (2 : Fin 3) * 16 + 1 * (y 2).val = (y 2).val; omega

/-- The bias's one block is the whole bias array. -/
theorem blk_b (c : Dev nD) (t : Fin cfg1.N) : iblk1 V c 2 t = V c main_arg6 := by
  obtain ⟨e0, e1, e2, e3, e4, e5, e6, e7⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 1) * 16 + 1 * (y 0).val = (y 0).val; omega

/-- What grid point `t` writes back is block `t` of the whole-array function of the arrays the region finds. -/
theorem flushed_eq (c : Dev nD) (t : Fin cfg1.N) :
    (dat1 V c).flushed 3 t = ((cfg1.win 3).blk t).view.read (Elt Ideal) (layerSm (V c main_call0_v68) (V c main_call0_v70) (V c main_arg6)) := by
  show (cfg1.win 3).cut (grid1.coords t) ((dat1 V c).after 3 t) = _
  rw [after1_3, show out1_3 (iblk1 V c 0 t) (iblk1 V c 1 t) (iblk1 V c 2 t) = _ from out_eq_blockSm (iblk1 V c 0 t) (iblk1 V c 1 t) (iblk1 V c 2 t)]
  obtain ⟨e0, e1, e2, e3, e4, e5, e6, e7⟩ := idx_facts t
  funext j
  show blockSm (iblk1 V c 0 t) (iblk1 V c 1 t) (iblk1 V c 2 t) j = layerSm (V c main_call0_v68) (V c main_call0_v70) (V c main_arg6) (((cfg1.win 3).blk t).view.emb j)
  refine blockSm_eq_layerSm _ _ _ _ _ _ j _ ?_ ?_ (blk_w V c t) (blk_b V c t)
  · show win1_3.index t (1 : Fin 2) * 16 + 1 * (j 1).val = (j 1).val; omega
  · intro r f
    show V c main_call0_v68 (((cfg1.win 0).blk t).view.emb (ix3 r (⟨(j 0).val, (j 0).isLt⟩ : Fin 2000) f)) = _
    refine congrArg (V c main_call0_v68) (funext fun a => Fin.ext ?_)
    match a with
    | ⟨0, _⟩ => show win1_0.index t (0 : Fin 3) * 4 + 1 * r.val = r.val; omega
    | ⟨1, _⟩ => show win1_0.index t (1 : Fin 3) * 2000 + 1 * (j 0).val = win1_3.index t (0 : Fin 2) * 2000 + 1 * (j 0).val; omega
    | ⟨2, _⟩ => show win1_0.index t (2 : Fin 3) * 128 + 1 * f.val = f.val; omega

/-- An index of the output array is in point `t`'s block iff each coordinate is in the block's range on its axis. -/
theorem mem_blk (t : Fin cfg1.N) (i : S50000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v0).slice (win1_3.rect t)).set ↔ _
  rw [View.set_slice_whole, Rect.mem_set_unit]
  exact Iff.rfl

/-- The 25 row blocks of 2000 nodes tile the 50000 nodes: every index is in the block of the point `n / 2000`. -/
theorem cover (i : S50000x16.Idx) : ∃ t : Fin cfg1.N, (cfg1.win 3).flush t = true ∧ i ∈ ((cfg1.win 3).blk t).view.set := by
  have hi0 : (i 0).val < 50000 := (i 0).isLt
  have hi1 : (i 1).val < 16 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 16 ≤ (i 1).val ∧ (i 1).val < win1_3.index t (1 : Fin 2) * 16 + 16; omega

/-- The output array after the region: the whole-array function of the arrays the region finds. -/
theorem final (c : Dev nD) : (dat1 V c).arrAt 3 cfg1.N = layerSm (V c main_call0_v68) (V c main_call0_v70) (V c main_arg6) :=
  (dat1 V c).arrAt_eq_of_cover 3 _ (fun t _ => flushed_eq V c t) cover

end Region

end Cert.KernelIdeal.Layer2

end
-- ==== Proof.Bridge.lean ====
/-
  The two programs' layers are one function of the aggregate, the weight and the bias.

  The reference lays a node's four relation-wise aggregate rows side by side, `hcat[n, r·K + f] = agg[r, n, f]`
  (a reshape, a transpose and a reshape read at an index), takes ONE dot product of length `4·K` with the weight
  matrix and adds the bias; the kernel keeps the weight as four slabs, `slab[r, f, q] = W[r·K + f, q]`, and
  accumulates four dot products of length `K` from zero. The two are the same finite sum in the commutative monoid of
  extended reals (Spec). The second layer ends, in both programs, with the same log-softmax expression over each row of 16;
  the reference's extra maximum with the starting value `-∞` changes nothing.
-/
import proofs.«148697_j30640296689801_2_alg».proof.Proof.Layer1
import proofs.«148697_j30640296689801_2_alg».proof.Proof.Layer2
import proofs.«148697_j30640296689801_2_alg».proof.Proof.RefRead
import proofs.«148697_j30640296689801_2_alg».proof.Proof.LibRowReduce
import Idealize.ShloMosaic.PureOps.Reduce

set_option maxRecDepth 16384

noncomputable section

namespace Cert.Bridge

open Idealize.ShloMosaic Idealize.ShloMosaic.ValueIdx
open Cert.ReferenceIdeal Cert.ReferenceIdeal.Gen Cert.ReferenceIdeal.Read

/-! ## The first layer -/

/-- The kernel's slab-wise layer on the reference's aggregate, with the weight cut into slabs, is the reference's
    single long dot product plus bias. -/
theorem layer1_eq (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) (Wk : Vec Ideal Cert.KernelIdeal.S4x256x128 .bf16)
    (hW : ∀ (r : Fin 4) (f : Fin 256) (q : Fin 128), Wk (ix3 r f q) = x3 (ix2 (Cert.Spec.flatPos (K := 256) (n := 1024) rfl r f) q)) :
    Cert.KernelIdeal.Layer1.layer (val_main_v47 (F := Ideal) x0 x1 x2) Wk x4 = val_main_v53 (F := Ideal) x0 x1 x2 x3 x4 := by
  funext i
  rw [val_main_v53_apply, val_main_v50_apply, val_main_v52_apply, val_main_v51_apply]
  unfold Cert.KernelIdeal.Layer1.layer
  refine (Cert.Spec.lin4_eq_flat (K := 256) (n := 1024) rfl _ _ _
    (fun k => val_main_v49 (F := Ideal) x0 x1 x2 (lidx_main_v50 i k)) (fun k => x3 (ridx_main_v50 i k)) ?_ ?_).trans ?_
  · intro r f
    beta_reduce
    have hv : (Cert.Spec.flatPos (K := 256) (n := 1024) rfl r f).val = f.val + 256 * r.val := rfl
    have hr : r.val < 4 := r.isLt
    have hf : f.val < 256 := f.isLt
    have hi : (i 0).val < 50000 := (i 0).isLt
    rw [val_main_v49_apply, val_main_v48_apply]
    refine congrArg (val_main_v47 (F := Ideal) x0 x1 x2) (funext fun a => Fin.ext ?_)
    match a with
    | ⟨0, _⟩ => show ((i 0).val * 1024 + (Cert.Spec.flatPos (K := 256) (n := 1024) rfl r f).val) / 256 % 4 = r.val; omega
    | ⟨1, _⟩ => show ((i 0).val * 1024 + (Cert.Spec.flatPos (K := 256) (n := 1024) rfl r f).val) / 1024 = (i 0).val; omega
    | ⟨2, _⟩ => show ((i 0).val * 1024 + (Cert.Spec.flatPos (K := 256) (n := 1024) rfl r f).val) % 256 = f.val; omega
  · intro r f
    beta_reduce
    rw [hW]
    refine congrArg x3 (funext fun a => Fin.ext ?_)
    match a with
    | ⟨0, _⟩ => rfl
    | ⟨1, _⟩ => rfl
  · refine congrArg (fun b => (∑ k : Fin 1024, val_main_v49 (F := Ideal) x0 x1 x2 (lidx_main_v50 i k) * x3 (ridx_main_v50 i k)) + b) ?_
    refine congrArg x4 (funext fun a => Fin.ext ?_)
    match a with
    | ⟨0, _⟩ => rfl

/-! ## The second layer -/

/-- The linear part of the second layer, as for the first. -/
theorem lin2_eq (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) (x5 : (⟨S512x16, .f32⟩ : BufTy).Contents (Elt Ideal))
    (x6 : (⟨S16, .f32⟩ : BufTy).Contents (Elt Ideal)) (Wk : Vec Ideal Cert.KernelIdeal.S4x128x16 .bf16)
    (hW : ∀ (r : Fin 4) (f : Fin 128) (q : Fin 16), Wk (ix3 r f q) = x5 (ix2 (Cert.Spec.flatPos (K := 128) (n := 512) rfl r f) q)) :
    Cert.KernelIdeal.Layer2.layer (val_main_v70 (F := Ideal) x0 x1 x2 x3 x4) Wk x6 = val_main_v76 (F := Ideal) x0 x1 x2 x3 x4 x5 x6 := by
  funext i
  rw [val_main_v76_apply, val_main_v73_apply, val_main_v75_apply, val_main_v74_apply]
  unfold Cert.KernelIdeal.Layer2.layer
  refine (Cert.Spec.lin4_eq_flat (K := 128) (n := 512) rfl _ _ _
    (fun k => val_main_v72 (F := Ideal) x0 x1 x2 x3 x4 (lidx_main_v73 i k)) (fun k => x5 (ridx_main_v73 i k)) ?_ ?_).trans ?_
  · intro r f
    beta_reduce
    have hv : (Cert.Spec.flatPos (K := 128) (n := 512) rfl r f).val = f.val + 128 * r.val := rfl
    have hr : r.val < 4 := r.isLt
    have hf : f.val < 128 := f.isLt
    have hi : (i 0).val < 50000 := (i 0).isLt
    rw [val_main_v72_apply, val_main_v71_apply]
    refine congrArg (val_main_v70 (F := Ideal) x0 x1 x2 x3 x4) (funext fun a => Fin.ext ?_)
    match a with
    | ⟨0, _⟩ => show ((i 0).val * 512 + (Cert.Spec.flatPos (K := 128) (n := 512) rfl r f).val) / 128 % 4 = r.val; omega
    | ⟨1, _⟩ => show ((i 0).val * 512 + (Cert.Spec.flatPos (K := 128) (n := 512) rfl r f).val) / 512 = (i 0).val; omega
    | ⟨2, _⟩ => show ((i 0).val * 512 + (Cert.Spec.flatPos (K := 128) (n := 512) rfl r f).val) % 128 = f.val; omega
  · intro r f
    beta_reduce
    rw [hW]
    refine congrArg x5 (funext fun a => Fin.ext ?_)
    match a with
    | ⟨0, _⟩ => rfl
    | ⟨1, _⟩ => rfl
  · refine congrArg (fun b => (∑ k : Fin 512, val_main_v72 (F := Ideal) x0 x1 x2 x3 x4 (lidx_main_v73 i k) * x5 (ridx_main_v73 i k)) + b) ?_
    refine congrArg x6 (funext fun a => Fin.ext ?_)
    match a with
    | ⟨0, _⟩ => rfl

/-- The reference's maximum over a row of 16, folded from the pattern of `-∞`. -/
theorem hostRowMax (z : FVec Ideal S50000x16 .f32) (n : Fin 50000) :
    Host.reduce (FloatOps.maximumf (F := Ideal) (φ := .f32)) z (val_main_call1_cst (F := Ideal)) reducesTo_S50000x16_S50000_d1 h_S_ (ix1 n)
      = Cert.Spec.rowMax (Ideal.ofBits .f32 0xFF800000#32) (fun k => z (ix2 n k)) := by
  have h : S50000x16.Reduces [(1 : Fin 2)] S50000 := by decide
  refine (Host.reduce_eq_fold_single (FloatOps.maximumf (F := Ideal) (φ := .f32)) z _ reducesTo_S50000x16_S50000_d1 h h_S_ (ix1 n)).trans ?_
  show (Finset.univ : Finset (Fin 16)).fold max (Ideal.ofBits .f32 0xFF800000#32) (fun k => z (h.lift (ix1 n) k)) = _
  unfold Cert.Spec.rowMax
  exact congrArg (fun f : Fin 16 → EReal => (Finset.univ : Finset (Fin 16)).fold max (Ideal.ofBits .f32 0xFF800000#32) f)
    (funext fun k => congrArg z (RowReduce.lift_row h n k))

/-- The kernel's second layer, log-softmax included, on the reference's aggregate is the reference's result. -/
theorem layer2_eq (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) (x5 : (⟨S512x16, .f32⟩ : BufTy).Contents (Elt Ideal))
    (x6 : (⟨S16, .f32⟩ : BufTy).Contents (Elt Ideal)) (Wk : Vec Ideal Cert.KernelIdeal.S4x128x16 .bf16)
    (hW : ∀ (r : Fin 4) (f : Fin 128) (q : Fin 16), Wk (ix3 r f q) = x5 (ix2 (Cert.Spec.flatPos (K := 128) (n := 512) rfl r f) q)) :
    Cert.KernelIdeal.Layer2.layerSm (val_main_v70 (F := Ideal) x0 x1 x2 x3 x4) Wk x6 = val_main_v77 (F := Ideal) x0 x1 x2 x3 x4 x5 x6 := by
  have hz := lin2_eq x0 x1 x2 x3 x4 x5 x6 Wk hW
  funext i
  obtain ⟨n, q, rfl⟩ : ∃ (n : Fin 50000) (q : Fin 16), i = ix2 n q := ⟨i 0, i 1, eq_ix2 i⟩
  have hM : ∀ q' : Fin 16, val_main_call1_v4 (F := Ideal) x0 x1 x2 x3 x4 x5 x6 (ix2 n q')
      = Cert.Spec.rowMax (Ideal.ofBits .f32 0xFF800000#32) (fun k => val_main_v76 (F := Ideal) x0 x1 x2 x3 x4 x5 x6 (ix2 n k)) := fun q' => by
    rw [val_main_call1_v4_apply, val_main_call1_v3_apply, val_main_call1_v2_apply]
    have e : idx_main_call1_v3 (idx_main_call1_v4 (ix2 n q')) = ix1 n := funext fun a => Fin.ext (by
      match a with
      | ⟨0, _⟩ => rfl)
    rw [e]
    show max (Ideal.ofBits .f32 0xFF800000#32) (Host.reduce FloatOps.maximumf (val_main_v76 (F := Ideal) x0 x1 x2 x3 x4 x5 x6) (val_main_call1_cst (F := Ideal)) reducesTo_S50000x16_S50000_d1 h_S_ (ix1 n)) = _
    rw [hostRowMax]
    exact Cert.Spec.max_rowMax _ _
  have h5 : ∀ k : Fin 16, val_main_call1_v5 (F := Ideal) x0 x1 x2 x3 x4 x5 x6 (ix2 n k)
      = val_main_v76 (F := Ideal) x0 x1 x2 x3 x4 x5 x6 (ix2 n k) - Cert.Spec.rowMax (Ideal.ofBits .f32 0xFF800000#32) (fun k => val_main_v76 (F := Ideal) x0 x1 x2 x3 x4 x5 x6 (ix2 n k)) := fun k => by
    rw [val_main_call1_v5_apply, hM, Ideal.subf_def]
  have h10 : val_main_call1_v10 (F := Ideal) x0 x1 x2 x3 x4 x5 x6 (ix2 n q)
      = Ideal.log (∑ k : Fin 16, Ideal.exp (val_main_v76 (F := Ideal) x0 x1 x2 x3 x4 x5 x6 (ix2 n k) - Cert.Spec.rowMax (Ideal.ofBits .f32 0xFF800000#32) (fun k => val_main_v76 (F := Ideal) x0 x1 x2 x3 x4 x5 x6 (ix2 n k)))) := by
    have hzero : (FloatOps.ofBits (F := Ideal) .f32 0x00000000#32 : EReal) = 0 := Ideal.ofBits_zero_f32
    rw [val_main_call1_v10_apply, val_main_call1_v9_apply, val_main_call1_v8_apply, val_main_call1_v7_apply, Ideal.hostUnary_log_def,
      val_main_call1_cst_1_apply, hzero, zero_add]
    refine congrArg Ideal.log (Finset.sum_congr rfl fun k _ => ?_)
    have e : idx_main_call1_v7 (idx_main_call1_v8 (idx_main_call1_v10 (ix2 n q))) k = ix2 n k := funext fun a => Fin.ext (by
      match a with
      | ⟨0, _⟩ => rfl
      | ⟨1, _⟩ => rfl)
    rw [e, val_main_call1_v6_apply, h5, Ideal.hostUnary_exp_def]
  rw [val_main_v77_apply, h5, h10]
  show Cert.Spec.logSoftmax (Ideal.ofBits .f32 0xFF800000#32) (fun k => Cert.KernelIdeal.Layer2.layer (val_main_v70 (F := Ideal) x0 x1 x2 x3 x4) Wk x6 (ix2 n k)) q = _
  rw [hz]
  unfold Cert.Spec.logSoftmax
  rw [Ideal.subf_def]

end Cert.Bridge

end
-- ==== Proof.RefStages.lean ====
/-
  The reference's fold of 112 operations read as the stage functions' composition, a stretch at a time.

  The line of operations is cut where a value that several later operations read has just been written: after the
  edge norm (with the edge list's two rows), after the first layer's output, after the second layer's linear output,
  and the log-softmax. Over an ARBITRARY valuation of the buffers each stretch's result is its operations' term of the
  few buffers it reads; composing the four gives the result buffer as the last stage function of the arguments.
  Nothing here is arithmetic: every step is the definition of an operation's result or of a stage function.
-/
import proofs.«148697_j30640296689801_2_alg».proof.Proof.RefRead

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Folding a concatenation is folding the second list over the first's fold. -/
theorem after_append {τ : Topo} {sig : RefSig} {Val : EltTy → Type} (l1 l2 : List (HloOp τ sig Val)) (V : Valuation τ sig Val) :
    after (l1 ++ l2) V = after l2 (after l1 V) := by
  induction l1 generalizing V with
  | nil => rfl
  | cons op l ih => simp only [List.cons_append, after_cons, ih]

/-- Transport of a buffer's contents to a value's type and back is the identity. -/
theorem ofBuf_toBuf {sig : RefSig} {Val : EltTy → Type} {T : BufTy} (x : TRef sig T) (v : T.Contents Val) : x.ofBuf (x.toBuf v) = v := by
  obtain ⟨r, h, h2, h3⟩ := x
  subst h
  rfl

/-- The edge list's rows, the degrees and the edge norm (operations 1–43). -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.sqrt : (⟨S50000, .f32⟩ : BufTy).Contents (Elt F) → (⟨S50000, .f32⟩ : BufTy).Contents (Elt F)),
    nullary main_cst_3 (constant S_ .f32 0x3F800000#32),
    unary main_cst_3 main_v13 (broadcastInDim S50000 ![] bcast_S_S50000 : (⟨S_, .f32⟩ : BufTy).Contents (Elt F) → (⟨S50000, .f32⟩ : BufTy).Contents (Elt F)),
    binary main_v13 main_v12 main_v14 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_6 (constantI S_ 32 0#32),
    unary main_c_6 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v15 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)) ]
/-- The first layer (operations 44–70). -/
abbrev opsB : List (HloOp τ sig (Elt F)) :=
  [ nullary main_c_8 (constantI S_ 32 0#32),
    unary main_c_8 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_arg0 main_v36 main_v37 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v38 (broadcastInDim S800000x1 ![0] bcast_S800000_S800000x1_0 : (⟨S800000, .f32⟩ : BufTy).Contents (Elt F) → (⟨S800000x1, .f32⟩ : BufTy).Contents (Elt F)),
    unary main_v38 main_v39 (broadcastInDim S800000x256 ![0, 1] bcast_S800000x1_S800000x256_0_1 : (⟨S800000x1, .f32⟩ : BufTy).Contents (Elt F) → (⟨S800000x256, .f32⟩ : BufTy).Contents (Elt F)),
    binary main_v37 main_v39 main_v40 (mulf : (⟨S800000x256, .f32⟩ : BufTy).Contents (Elt F) → (⟨S800000x256, .f32⟩ : BufTy).Contents (Elt F) → (⟨S800000x256, .f32⟩ : BufTy).Contents (Elt F)),
    nullary main_c_10 (constantI S_ 32 50000#32),
    unary main_c_10 main_v41 (broadcastInDim S800000 ![] bcast_S_S800000 : (⟨S_, .i32⟩ : BufTy).Contents (Elt F) → (⟨S800000, .i32⟩ : BufTy).Contents (Elt F)),
    binary main_arg2 main_v41 main_v42 (muli : (⟨S800000, .i32⟩ : BufTy).Contents (Elt F) → (⟨S800000, .i32⟩ : BufTy).Contents (Elt F) → (⟨S800000, .i32⟩ : BufTy).Contents (Elt F)),
    binary main_v42 main_v1 main_v43 (addi : (⟨S800000, .i32⟩ : BufTy).Contents (Elt F) → (⟨S800000, .i32⟩ : BufTy).Contents (Elt F) → (⟨S800000, .i32⟩ : BufTy).Contents (Elt F)),
    nullary main_cst_11 (constant S_ .f32 0x00000000#32),
    unary main_cst_11 main_v44 (broadcastInDim S200000x256 ![] bcast_S_S200000x256 : (⟨S_, .f32⟩ : BufTy).Contents (Elt F) → (⟨S200000x256, .f32⟩ : BufTy).Contents (Elt F)),
    unary main_v43 main_v45 (broadcastInDim S800000x1 ![0] bcast_S800000_S800000x1_0 : (⟨S800000, .i32⟩ : BufTy).Contents (Elt F) → (⟨S800000x1, .i32⟩ : BufTy).Contents (Elt F)),
    ternary main_v44 main_v45 main_v40 main_v46 ((fun x i u => Host.scatterAdd scatter_S200000x256_S800000x1_S800000x256_1_0_0_1 x i u) : (⟨S200000x256, .f32⟩ : BufTy).Contents (Elt F) → (⟨S800000x1, .i32⟩ : BufTy).Contents (Elt F) → (⟨S800000x256, .f32⟩ : BufTy).Contents (Elt F) → (⟨S200000x256, .f32⟩ : BufTy).Contents (Elt F)),
    reshape main_v46 main_v47 rfl shapeCasts_S200000x256_S4x50000x256,
    unary main_v47 main_v48 ((transpose S50000x4x256 [1, 0, 2] · transposes_S4x50000x256_S50000x4x256_1_0_2) : (⟨S4x50000x256, .f32⟩ : BufTy).Contents (Elt F) → (⟨S50000x4x256, .f32⟩ : BufTy).Contents (Elt F)),
    reshape main_v48 main_v49 rfl shapeCasts_S50000x4x256_S50000x1024,
    binary main_v49 main_arg3 main_v50 ((fun l r => Host.dotGeneral dot_S50000x1024_S1024x128_S50000x128_1_0_0_1_n_n none l r) : (⟨S50000x1024, .f32⟩ : BufTy).Contents (Elt F) → (⟨S1024x128, .f32⟩ : BufTy).Contents (Elt F) → (⟨S50000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)) ]
/-- The second layer's linear part (operations 71–97). -/
abbrev opsC : List (HloOp τ sig (Elt F)) :=
  [ nullary main_c_12 (constantI S_ 32 0#32),
    unary main_c_12 main_v54 (broadcastInDim S800000 ![] bcast_S_S800000 : (⟨S_, .i32⟩ : BufTy).Contents (Elt F) → (⟨S800000, .i32⟩ : BufTy).Contents (Elt F)),
    binary main_v3 main_v54 main_v55 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v56 (broadcastInDim S800000 ![] bcast_S_S800000 : (⟨S_, .i32⟩ : BufTy).Contents (Elt F) → (⟨S800000, .i32⟩ : BufTy).Contents (Elt F)),
    binary main_v3 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_v3 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v53 main_v59 main_v60 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v61 (broadcastInDim S800000x1 ![0] bcast_S800000_S800000x1_0 : (⟨S800000, .f32⟩ : BufTy).Contents (Elt F) → (⟨S800000x1, .f32⟩ : BufTy).Contents (Elt F)),
    unary main_v61 main_v62 (broadcastInDim S800000x128 ![0, 1] bcast_S800000x1_S800000x128_0_1 : (⟨S800000x1, .f32⟩ : BufTy).Contents (Elt F) → (⟨S800000x128, .f32⟩ : BufTy).Contents (Elt F)),
    binary main_v60 main_v62 main_v63 (mulf : (⟨S800000x128, .f32⟩ : BufTy).Contents (Elt F) → (⟨S800000x128, .f32⟩ : BufTy).Contents (Elt F) → (⟨S800000x128, .f32⟩ : BufTy).Contents (Elt F)),
    nullary main_c_14 (constantI S_ 32 50000#32),
    unary main_c_14 main_v64 (broadcastInDim S800000 ![] bcast_S_S800000 : (⟨S_, .i32⟩ : BufTy).Contents (Elt F) → (⟨S800000, .i32⟩ : BufTy).Contents (Elt F)),
    binary main_arg2 main_v64 main_v65 (muli : (⟨S800000, .i32⟩ : BufTy).Contents (Elt F) → (⟨S800000, .i32⟩ : BufTy).Contents (Elt F) → (⟨S800000, .i32⟩ : BufTy).Contents (Elt F)),
    binary main_v65 main_v1 main_v66 (addi : (⟨S800000, .i32⟩ : BufTy).Contents (Elt F) → (⟨S800000, .i32⟩ : BufTy).Contents (Elt F) → (⟨S800000, .i32⟩ : BufTy).Contents (Elt F)),
    nullary main_cst_15 (constant S_ .f32 0x00000000#32),
    unary main_cst_15 main_v67 (broadcastInDim S200000x128 ![] bcast_S_S200000x128 : (⟨S_, .f32⟩ : BufTy).Contents (Elt F) → (⟨S200000x128, .f32⟩ : BufTy).Contents (Elt F)),
    unary main_v66 main_v68 (broadcastInDim S800000x1 ![0] bcast_S800000_S800000x1_0 : (⟨S800000, .i32⟩ : BufTy).Contents (Elt F) → (⟨S800000x1, .i32⟩ : BufTy).Contents (Elt F)),
    ternary main_v67 main_v68 main_v63 main_v69 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    reshape main_v69 main_v70 rfl shapeCasts_S200000x128_S4x50000x128,
    unary main_v70 main_v71 ((transpose S50000x4x128 [1, 0, 2] · transposes_S4x50000x128_S50000x4x128_1_0_2) : (⟨S4x50000x128, .f32⟩ : BufTy).Contents (Elt F) → (⟨S50000x4x128, .f32⟩ : BufTy).Contents (Elt F)),
    reshape main_v71 main_v72 rfl shapeCasts_S50000x4x128_S50000x512,
    binary main_v72 main_arg5 main_v73 ((fun l r => Host.dotGeneral dot_S50000x512_S512x16_S50000x16_1_0_0_1_n_n none l r) : (⟨S50000x512, .f32⟩ : BufTy).Contents (Elt F) → (⟨S512x16, .f32⟩ : BufTy).Contents (Elt F) → (⟨S50000x16, .f32⟩ : BufTy).Contents (Elt F)),
    unary main_arg6 main_v74 (broadcastInDim S1x16 ![1] bcast_S16_S1x16_1 : (⟨S16, .f32⟩ : BufTy).Contents (Elt F) → (⟨S1x16, .f32⟩ : BufTy).Contents (Elt F)),
    unary main_v74 main_v75 (broadcastInDim S50000x16 ![0, 1] bcast_S1x16_S50000x16_0_1 : (⟨S1x16, .f32⟩ : BufTy).Contents (Elt F) → (⟨S50000x16, .f32⟩ : BufTy).Contents (Elt F)),
    binary main_v73 main_v75 main_v76 (addf : (⟨S50000x16, .f32⟩ : BufTy).Contents (Elt F) → (⟨S50000x16, .f32⟩ : BufTy).Contents (Elt F) → (⟨S50000x16, .f32⟩ : BufTy).Contents (Elt F)) ]
/-- The log-softmax (operations 98–112). -/
abbrev opsD : List (HloOp τ sig (Elt F)) :=
  [ TRef.nullary (TRef.of (T := ⟨S_, .f32⟩) main_call1_cst) (constant S_ .f32 0xFF800000#32),
    TRef.binary (TRef.of (T := ⟨S50000x16, .f32⟩) main_v76) (TRef.of (T := ⟨S_, .f32⟩) main_call1_cst) (TRef.of (T := ⟨S50000, .f32⟩) main_call1_v0) (fun x v => Host.reduce FloatOps.maximumf x v reducesTo_S50000x16_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x16, .f32⟩) main_call1_v4) (broadcastInDim S50000x16 ![0, 1] bcast_S50000x1_S50000x16_0_1),
    TRef.binary (TRef.of (T := ⟨S50000x16, .f32⟩) main_v76) (TRef.of (T := ⟨S50000x16, .f32⟩) main_call1_v4) (TRef.of (T := ⟨S50000x16, .f32⟩) main_call1_v5) subf,
    TRef.unary (TRef.of (T := ⟨S50000x16, .f32⟩) main_call1_v5) (TRef.of (T := ⟨S50000x16, .f32⟩) main_call1_v6) Host.exp,
    TRef.nullary (TRef.of (T := ⟨S_, .f32⟩) main_call1_cst_1) (constant S_ .f32 0x00000000#32),
    TRef.binary (TRef.of (T := ⟨S50000x16, .f32⟩) main_call1_v6) (TRef.of (T := ⟨S_, .f32⟩) main_call1_cst_1) (TRef.of (T := ⟨S50000, .f32⟩) main_call1_v7) (fun x v => Host.reduceAdd x v reducesTo_S50000x16_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x16, .f32⟩) main_call1_v10) (broadcastInDim S50000x16 ![0, 1] bcast_S50000x1_S50000x16_0_1),
    TRef.binary (TRef.of (T := ⟨S50000x16, .f32⟩) main_call1_v5) (TRef.of (T := ⟨S50000x16, .f32⟩) main_call1_v10) (TRef.of (T := ⟨S50000x16, .f32⟩) main_v77) subf ]

set_option maxHeartbeats 4000000 in
theorem ops_split : (ops : List (HloOp τ sig (Elt F))) = opsA ++ (opsB ++ (opsC ++ opsD)) := rfl

/-! ## Each stretch over an arbitrary valuation -/

set_option maxHeartbeats 4000000 in
theorem stageA_row (V : Valuation τ sig (Elt F)) : after opsA V (Proc.devRef .tc main_v1) = val_main_v1 (F := F) (V (Proc.devRef .tc main_arg1)) := by
  after_results_simp <;> rfl
set_option maxHeartbeats 4000000 in
theorem stageA_col (V : Valuation τ sig (Elt F)) : after opsA V (Proc.devRef .tc main_v3) = val_main_v3 (F := F) (V (Proc.devRef .tc main_arg1)) := by
  after_results_simp <;> rfl
set_option maxHeartbeats 4000000 in
theorem stageA_norm (V : Valuation τ sig (Elt F)) : after opsA V (Proc.devRef .tc main_v30) = val_main_v30 (F := F) (V (Proc.devRef .tc main_arg1)) := by
  after_results_simp <;> rfl

set_option maxHeartbeats 4000000 in
/-- The first layer's output from the edge rows, the edge norm and the arguments it reads. -/
theorem stageB (V : Valuation τ sig (Elt F)) (x1 : (⟨S2x800000, .i32⟩ : BufTy).Contents (Elt F))
    (h1 : V (Proc.devRef .tc main_v1) = val_main_v1 (F := F) x1) (h3 : V (Proc.devRef .tc main_v3) = val_main_v3 (F := F) x1)
    (h30 : V (Proc.devRef .tc main_v30) = val_main_v30 (F := F) x1) :
    after opsB V (Proc.devRef .tc main_v53)
      = val_main_v53 (F := F) (V (Proc.devRef .tc main_arg0)) x1 (V (Proc.devRef .tc main_arg2)) (V (Proc.devRef .tc main_arg3)) (V (Proc.devRef .tc main_arg4)) := by
  after_results_simp
  rw [h1, h3, h30]
  rfl

set_option maxHeartbeats 4000000 in
/-- The second layer's linear output from the first layer's output, the edge rows and norm, and the arguments it reads. -/
theorem stageC (V : Valuation τ sig (Elt F)) (x0 : (⟨S50000x256, .f32⟩ : BufTy).Contents (Elt F)) (x1 : (⟨S2x800000, .i32⟩ : BufTy).Contents (Elt F)) (x3 : (⟨S1024x128, .f32⟩ : BufTy).Contents (Elt F)) (x4 : (⟨S128, .f32⟩ : BufTy).Contents (Elt F))
    (h1 : V (Proc.devRef .tc main_v1) = val_main_v1 (F := F) x1) (h3 : V (Proc.devRef .tc main_v3) = val_main_v3 (F := F) x1)
    (h30 : V (Proc.devRef .tc main_v30) = val_main_v30 (F := F) x1)
    (h53 : V (Proc.devRef .tc main_v53) = val_main_v53 (F := F) x0 x1 (V (Proc.devRef .tc main_arg2)) x3 x4) :
    after opsC V (Proc.devRef .tc main_v76)
      = val_main_v76 (F := F) x0 x1 (V (Proc.devRef .tc main_arg2)) x3 x4 (V (Proc.devRef .tc main_arg5)) (V (Proc.devRef .tc main_arg6)) := by
  after_results_simp
  rw [h1, h3, h30, h53]
  rfl

/-- The two transports that stand alone in the last stretch: at the linear output it reads and at the result it writes. -/
theorem ofBuf_lin (v : (⟨S50000x16, .f32⟩ : BufTy).Contents (Elt F)) :
    (TRef.of (T := ⟨S50000x16, .f32⟩) main_v76).ofBuf v = v := rfl
theorem toBuf_out (v : (⟨S50000x16, .f32⟩ : BufTy).Contents (Elt F)) :
    (TRef.of (T := ⟨S50000x16, .f32⟩) main_v77).toBuf v = v := rfl

set_option maxHeartbeats 4000000 in
/-- The log-softmax of the second layer's linear output. -/
theorem stageD (V : Valuation τ sig (Elt F)) (x0 : (⟨S50000x256, .f32⟩ : BufTy).Contents (Elt F)) (x1 : (⟨S2x800000, .i32⟩ : BufTy).Contents (Elt F)) (x2 : (⟨S800000, .i32⟩ : BufTy).Contents (Elt F)) (x3 : (⟨S1024x128, .f32⟩ : BufTy).Contents (Elt F)) (x4 : (⟨S128, .f32⟩ : BufTy).Contents (Elt F)) (x5 : (⟨S512x16, .f32⟩ : BufTy).Contents (Elt F)) (x6 : (⟨S16, .f32⟩ : BufTy).Contents (Elt F))
    (h76 : V (Proc.devRef .tc main_v76) = val_main_v76 (F := F) x0 x1 x2 x3 x4 x5 x6) :
    after opsD V (Proc.devRef .tc main_v77) = val_main_v77 (F := F) x0 x1 x2 x3 x4 x5 x6 := by
  after_results_simp
  rw [h76]
  simp only [ofBuf_toBuf, ofBuf_lin, toBuf_out]
  rfl

/-! ## Buffers a stretch does not write -/

set_option maxHeartbeats 4000000 in
theorem keepA_arg0 (V : Valuation τ sig (Elt F)) : after opsA V (Proc.devRef .tc main_arg0) = V (Proc.devRef .tc main_arg0) := by
  after_results_simp
set_option maxHeartbeats 4000000 in
theorem keepA_arg2 (V : Valuation τ sig (Elt F)) : after opsA V (Proc.devRef .tc main_arg2) = V (Proc.devRef .tc main_arg2) := by
  after_results_simp
set_option maxHeartbeats 4000000 in
theorem keepA_arg3 (V : Valuation τ sig (Elt F)) : after opsA V (Proc.devRef .tc main_arg3) = V (Proc.devRef .tc main_arg3) := by
  after_results_simp
set_option maxHeartbeats 4000000 in
theorem keepA_arg4 (V : Valuation τ sig (Elt F)) : after opsA V (Proc.devRef .tc main_arg4) = V (Proc.devRef .tc main_arg4) := by
  after_results_simp
set_option maxHeartbeats 4000000 in
theorem keepA_arg5 (V : Valuation τ sig (Elt F)) : after opsA V (Proc.devRef .tc main_arg5) = V (Proc.devRef .tc main_arg5) := by
  after_results_simp
set_option maxHeartbeats 4000000 in
theorem keepA_arg6 (V : Valuation τ sig (Elt F)) : after opsA V (Proc.devRef .tc main_arg6) = V (Proc.devRef .tc main_arg6) := by
  after_results_simp

set_option maxHeartbeats 4000000 in
theorem keepB_v1 (V : Valuation τ sig (Elt F)) : after opsB V (Proc.devRef .tc main_v1) = V (Proc.devRef .tc main_v1) := by
  after_results_simp
set_option maxHeartbeats 4000000 in
theorem keepB_v3 (V : Valuation τ sig (Elt F)) : after opsB V (Proc.devRef .tc main_v3) = V (Proc.devRef .tc main_v3) := by
  after_results_simp
set_option maxHeartbeats 4000000 in
theorem keepB_v30 (V : Valuation τ sig (Elt F)) : after opsB V (Proc.devRef .tc main_v30) = V (Proc.devRef .tc main_v30) := by
  after_results_simp
set_option maxHeartbeats 4000000 in
theorem keepB_arg2 (V : Valuation τ sig (Elt F)) : after opsB V (Proc.devRef .tc main_arg2) = V (Proc.devRef .tc main_arg2) := by
  after_results_simp
set_option maxHeartbeats 4000000 in
theorem keepB_arg5 (V : Valuation τ sig (Elt F)) : after opsB V (Proc.devRef .tc main_arg5) = V (Proc.devRef .tc main_arg5) := by
  after_results_simp
set_option maxHeartbeats 4000000 in
theorem keepB_arg6 (V : Valuation τ sig (Elt F)) : after opsB V (Proc.devRef .tc main_arg6) = V (Proc.devRef .tc main_arg6) := by
  after_results_simp

/-! ## The whole line -/

/-- The result buffer after the whole line is the last stage function of the arguments. -/
theorem after_result (V : Valuation τ sig (Elt F)) :
    after (ops (F := F)) V (Proc.devRef .tc main_v77)
      = val_main_v77 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_split, after_append, after_append, after_append]
  have hB1 : after opsB (after opsA V) (Proc.devRef .tc main_v1) = val_main_v1 (F := F) (V (Proc.devRef .tc main_arg1)) := (keepB_v1 _).trans (stageA_row V)
  have hB3 : after opsB (after opsA V) (Proc.devRef .tc main_v3) = val_main_v3 (F := F) (V (Proc.devRef .tc main_arg1)) := (keepB_v3 _).trans (stageA_col V)
  have hB30 : after opsB (after opsA V) (Proc.devRef .tc main_v30) = val_main_v30 (F := F) (V (Proc.devRef .tc main_arg1)) := (keepB_v30 _).trans (stageA_norm V)
  have hB2 : after opsB (after opsA V) (Proc.devRef .tc main_arg2) = V (Proc.devRef .tc main_arg2) := (keepB_arg2 _).trans (keepA_arg2 V)
  have hB5 : after opsB (after opsA V) (Proc.devRef .tc main_arg5) = V (Proc.devRef .tc main_arg5) := (keepB_arg5 _).trans (keepA_arg5 V)
  have hB6 : after opsB (after opsA V) (Proc.devRef .tc main_arg6) = V (Proc.devRef .tc main_arg6) := (keepB_arg6 _).trans (keepA_arg6 V)
  have h53 : after opsB (after opsA V) (Proc.devRef .tc main_v53)
      = val_main_v53 (F := F) (V (Proc.devRef .tc main_arg0)) (V (Proc.devRef .tc main_arg1)) (V (Proc.devRef .tc main_arg2)) (V (Proc.devRef .tc main_arg3)) (V (Proc.devRef .tc main_arg4)) := by
    rw [stageB (after opsA V) (V (Proc.devRef .tc main_arg1)) (stageA_row V) (stageA_col V) (stageA_norm V), keepA_arg0, keepA_arg2, keepA_arg3, keepA_arg4]
  have h76 := stageC (after opsB (after opsA V)) (V (Proc.devRef .tc main_arg0)) (V (Proc.devRef .tc main_arg1)) (V (Proc.devRef .tc main_arg3)) (V (Proc.devRef .tc main_arg4)) hB1 hB3 hB30 (by rw [hB2]; exact h53)
  rw [hB2, hB5, hB6] at h76
  exact stageD _ _ _ _ _ _ _ _ h76

/-- The run with the result named: every weakly fair execution of the reference terminates with the result buffer at
    the last stage function of the launch contents of the arguments, the arguments unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((after_result (launchContents m c)).trans rfl), (h c).2⟩) (run m ρ)

end Cert.ReferenceIdeal.RefValue

end
-- ==== Proof.lean ====
/-
  The five claims of the certificate for the two-layer relational graph convolution.

  Both programs compute, from the node features, the edge list, the relation of every edge and two weight matrices with
  their biases: the symmetric edge normalisation; for each layer the (relation, target)-wise sums of the normalised
  source rows, multiplied by the layer's weight and shifted by its bias; and at the end the log-softmax of every row.
  The host operations that build the aggregates are the same operations in both programs. They differ in the linear
  part — the kernel accumulates, from zero, four products of a node's relation-wise aggregate rows with the four slabs
  of the weight, the reference lays the rows side by side and takes one long product (Spec, Bridge) — and in where the
  log-softmax is taken (inside the second kernel, a block of 2000 rows at a time: a row's log-softmax reads that row
  only). Every change of float format is the identity on extended reals, and no law beyond associativity and
  commutativity of the finite sums is used, so the precondition that the inputs are finite is never opened.

  Frames: the kernel's two (at the word level and at the extended reals) are the generated frame theorems; the
  reference's is its run with the result dropped. The idealization rewrote no operation, so `preserves` is `True`.
-/
import proofs.«148697_j30640296689801_2_alg».proof.Defs
import proofs.«148697_j30640296689801_2_alg».proof.Proof.Gen.Kernel
import proofs.«148697_j30640296689801_2_alg».proof.Proof.Gen.Kernel.Skeleton
import proofs.«148697_j30640296689801_2_alg».proof.Proof.Gen.Kernel.Launch
import proofs.«148697_j30640296689801_2_alg».proof.Proof.Gen.Kernel.Points
import proofs.«148697_j30640296689801_2_alg».proof.Proof.Gen.Kernel.Frame
import proofs.«148697_j30640296689801_2_alg».proof.Proof.Gen.KernelIdeal
import proofs.«148697_j30640296689801_2_alg».proof.Proof.Gen.KernelIdeal.Skeleton
import proofs.«148697_j30640296689801_2_alg».proof.Proof.Gen.KernelIdeal.Launch
import proofs.«148697_j30640296689801_2_alg».proof.Proof.Gen.KernelIdeal.Points
import proofs.«148697_j30640296689801_2_alg».proof.Proof.Gen.KernelIdeal.Frame
import proofs.«148697_j30640296689801_2_alg».proof.Proof.Gen.ReferenceIdeal
import proofs.«148697_j30640296689801_2_alg».proof.Proof.Gen.Pre_finite_inputs
import proofs.«148697_j30640296689801_2_alg».proof.Proof.KernelRun
import proofs.«148697_j30640296689801_2_alg».proof.Proof.HostRead
import proofs.«148697_j30640296689801_2_alg».proof.Proof.Bridge
import proofs.«148697_j30640296689801_2_alg».proof.Proof.RefStages
import Idealize.ShloMosaic.Adequacy
import Idealize.ShloMosaic.Init

set_option maxRecDepth 16384

noncomputable section

namespace Cert.Proof

open Idealize.ShloMosaic Idealize.ShloMosaic.ValueIdx Idealize.SL.Sem

/-! ## The kernel's result array as the reference's last stage -/

section KernelValue

open Cert.KernelIdeal Cert.KernelIdeal.HostRead

/-- Slab `r`, position `f` of the cut first weight is row `256·r + f` of the weight matrix. -/
theorem wcast1_slab (w : (⟨S1024x128, .f32⟩ : BufTy).Contents (Elt Ideal)) (r : Fin 4) (f : Fin 256) (q : Fin 128) :
    wcast1 w (ix3 r f q) = w (ix2 (Cert.Spec.flatPos (K := 256) (n := 1024) rfl r f) q) := by
  show (shapeCast S4x256x128 w Gen.shapeCasts_S1024x128_S4x256x128) (ix3 r f q) = _
  refine shapeCast_apply w _ _ _ ?_
  rw [Shape.rowMajor_val_two, Shape.rowMajor_val_three]
  show (f.val + 256 * r.val) * 128 + q.val = (r.val * 256 + f.val) * 128 + q.val
  omega

/-- Slab `r`, position `f` of the cut second weight is row `128·r + f` of the weight matrix. -/
theorem wcast2_slab (w : (⟨S512x16, .f32⟩ : BufTy).Contents (Elt Ideal)) (r : Fin 4) (f : Fin 128) (q : Fin 16) :
    wcast2 w (ix3 r f q) = w (ix2 (Cert.Spec.flatPos (K := 128) (n := 512) rfl r f) q) := by
  show (shapeCast S4x128x16 w Gen.shapeCasts_S512x16_S4x128x16) (ix3 r f q) = _
  refine shapeCast_apply w _ _ _ ?_
  rw [Shape.rowMajor_val_two, Shape.rowMajor_val_three]
  show (f.val + 128 * r.val) * 16 + q.val = (r.val * 128 + f.val) * 16 + q.val
  omega

/-- What the first kernel leaves in its output array is the reference's first layer. -/
theorem hidden_eq (m : (ℓ : Loc nD τ sig) → Buf (Elt Ideal) ℓ) (ρ : Dev nD → PrngReg) (c : Dev nD) :
    Gen.W2 (F := Ideal) m ρ c (Proc.devRef .tc main_call0_v50)
      = Cert.ReferenceIdeal.Read.val_main_v53 (F := Ideal) (a0 m c) (a1 m c) (a2 m c) (a3 m c) (a4 m c) := by
  refine (Gen.W2_arr m ρ c 3).trans ?_
  rw [Layer1.final (Gen.V1 (F := Ideal) m ρ) c, entry0_agg, entry0_w, entry0_b]
  exact Cert.Bridge.layer1_eq _ _ _ _ _ _ (wcast1_slab _)

/-- What the second kernel leaves in the result array is the reference's result. -/
theorem result_eq (m : (ℓ : Loc nD τ sig) → Buf (Elt Ideal) ℓ) (ρ : Dev nD → PrngReg) (c : Dev nD) :
    (Gen.dat1 (Gen.V3 (F := Ideal) m ρ) c).arrAt 3 cfg1.N
      = Cert.ReferenceIdeal.Read.val_main_v77 (F := Ideal) (a0 m c) (a1 m c) (a2 m c) (a3 m c) (a4 m c) (a5 m c) (a6 m c) := by
  rw [Layer2.final (Gen.V3 (F := Ideal) m ρ) c, entry1_agg m ρ c _ (hidden_eq m ρ c), entry1_w, entry1_b, agg2_ref]
  exact Cert.Bridge.layer2_eq _ _ _ _ _ _ _ _ (wcast2_slab _)

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run_result (F := Ideal) m ρ)

theorem preserves : Cert.preserves_Kernel_KernelIdeal := trivial

/-- From memories that agree on the arguments both programs end with the result at the reference's last stage function
    of the arguments: the kernel by its two regions (`result_eq`), the reference by its run. -/
theorem algebraic : Cert.algebraic_KernelIdeal_ReferenceIdeal := by
  intro m ρ m' ρ' _ hagree
  refine ⟨fun c => Cert.ReferenceIdeal.Read.val_main_v77 (F := Ideal) (Cert.KernelIdeal.HostRead.a0 m c) (Cert.KernelIdeal.HostRead.a1 m c)
    (Cert.KernelIdeal.HostRead.a2 m c) (Cert.KernelIdeal.HostRead.a3 m c) (Cert.KernelIdeal.HostRead.a4 m c) (Cert.KernelIdeal.HostRead.a5 m c)
    (Cert.KernelIdeal.HostRead.a6 m c), ?_, ?_⟩
  · exact (θ_run Cert.KernelIdeal.defs _ _).mono (fun r h c => ⟨(h c).1.trans (result_eq m ρ c), (h c).2⟩)
      (Cert.KernelIdeal.Run.run_out (F := Ideal) m ρ)
  · refine (θ_run Cert.ReferenceIdeal.defs _ _).mono (fun r h c => ⟨?_, (h c).2⟩)
      (Cert.ReferenceIdeal.RefValue.run_result (F := Ideal) m' ρ')
    rw [(h c).1, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
